-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024 .f32) (main_arg9 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S1024x1024 .f32) (main_arg6 : FVec F S1024x1024 .f32) (main_arg7 : FVec F S1024x1024 .f32) (main_arg8 : FVec F S1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg8 main_arg9 main_v33

def fn {F : FTy → Type} [FloatOps F] (main_arg0 : FVec F S4x2048x1024 .f32) (main_arg1 : FVec F S4x2048x1024 .f32) (main_arg2 : FVec F S4x2048x1024 .f32) (main_arg3 : IVec S4x2048x2048 32) (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_v13 main_v16
-- ==== Kernel.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S8192x1024 : Shape := ⟨2, ![8192, 1024]⟩
abbrev S512x1024 : Shape := ⟨2, ![512, 1024]⟩
abbrev S4x2048x16x64 : Shape := ⟨4, ![4, 2048, 16, 64]⟩
abbrev S4x16x2048x64 : Shape := ⟨4, ![4, 16, 2048, 64]⟩
abbrev S1x1x256x64 : Shape := ⟨4, ![1, 1, 256, 64]⟩
abbrev S1x1x2048x64 : Shape := ⟨4, ![1, 1, 2048, 64]⟩
abbrev S1x256x2048 : Shape := ⟨3, ![1, 256, 2048]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S512 : Shape := ⟨1, ![512]⟩
abbrev S512x1 : Shape := ⟨2, ![512, 1]⟩
abbrev S1x1024 : Shape := ⟨2, ![1, 1024]⟩

abbrev nBuf : Space → Nat
  | .hbm => 32
  | .vmem => 34
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S8192x1024, .f32⟩
  | .hbm, ⟨15, _⟩ => ⟨S4x2048x16x64, .f32⟩
  | .hbm, ⟨16, _⟩ => ⟨S4x16x2048x64, .f32⟩
  | .hbm, ⟨17, _⟩ => ⟨S1024x1024, .f32⟩
  | .hbm, ⟨18, _⟩ => ⟨S8192x1024, .f32⟩
  | .hbm, ⟨19, _⟩ => ⟨S4x2048x16x64, .f32⟩
  | .hbm, ⟨20, _⟩ => ⟨S4x16x2048x64, .f32⟩
  | .hbm, ⟨21, _⟩ => ⟨S1024x1024, .f32⟩
  | .hbm, ⟨22, _⟩ => ⟨S8192x1024, .f32⟩
  | .hbm, ⟨23, _⟩ => ⟨S4x2048x16x64, .f32⟩
  | .hbm, ⟨24, _⟩ => ⟨S4x16x2048x64, .f32⟩
  | .hbm, ⟨25, _⟩ => ⟨S4x16x2048x64, .f32⟩
  | .hbm, ⟨26, _⟩ => ⟨S4x2048x16x64, .f32⟩
  | .hbm, ⟨27, _⟩ => ⟨S8192x1024, .f32⟩
  | .hbm, ⟨28, _⟩ => ⟨S8192x1024, .f32⟩
  | .hbm, ⟨29, _⟩ => ⟨S1024x1024, .f32⟩
  | .hbm, ⟨30, _⟩ => ⟨S8192x1024, .f32⟩
  | .hbm, ⟨31, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .f32⟩
  | .local _ .vmem, ⟨13, _⟩ => ⟨S512x1024, .f32⟩
  | .local _ .vmem, ⟨14, _⟩ => ⟨S512x1024, .f32⟩
  | .local _ .vmem, ⟨15, _⟩ => ⟨S1x1x256x64, .f32⟩
  | .local _ .vmem, ⟨16, _⟩ => ⟨S1x1x256x64, .f32⟩
  | .local _ .vmem, ⟨17, _⟩ => ⟨S1x1x2048x64, .f32⟩
  | .local _ .vmem, ⟨18, _⟩ => ⟨S1x1x2048x64, .f32⟩
  | .local _ .vmem, ⟨19, _⟩ => ⟨S1x1x2048x64, .f32⟩
  | .local _ .vmem, ⟨20, _⟩ => ⟨S1x1x2048x64, .f32⟩
  | .local _ .vmem, ⟨21, _⟩ => ⟨S1x256x2048, .i32⟩
  | .local _ .vmem, ⟨22, _⟩ => ⟨S1x256x2048, .i32⟩
  | .local _ .vmem, ⟨23, _⟩ => ⟨S1x1x256x64, .f32⟩
  | .local _ .vmem, ⟨24, _⟩ => ⟨S1x1x256x64, .f32⟩
  | .local _ .vmem, ⟨25, _⟩ => ⟨S512x1024, .f32⟩
  | .local _ .vmem, ⟨26, _⟩ => ⟨S512x1024, .f32⟩
  | .local _ .vmem, ⟨27, _⟩ => ⟨S1024x1024, .f32⟩
  | .local _ .vmem, ⟨28, _⟩ => ⟨S512x1024, .f32⟩
  | .local _ .vmem, ⟨29, _⟩ => ⟨S512x1024, .f32⟩
  | .local _ .vmem, ⟨30, _⟩ => ⟨S1024, .f32⟩
  | .local _ .vmem, ⟨31, _⟩ => ⟨S1024, .f32⟩
  | .local _ .vmem, ⟨32, _⟩ => ⟨S512x1024, .f32⟩
  | .local _ .vmem, ⟨33, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem5_0 : DmaSem sig := 32
abbrev cc4_sem5_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 8, 16], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage3_0 : Fin 2 → Memref sig .tc .vmem S1x1x256x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1x2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x256x2048 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1x1x256x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  shapeCasts_S4x2048x1024_S8192x1024 : S4x2048x1024.ShapeCasts S8192x1024
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x1024_S4x2048x16x64 : S8192x1024.ShapeCasts S4x2048x16x64
  transposes_S4x2048x16x64_S4x16x2048x64_0_2_1_3 : S4x2048x16x64.Transposes [0, 2, 1, 3] S4x16x2048x64
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x64_S1x1x256x64 : S256x64.ShapeCasts S1x1x256x64
  transposes_S4x16x2048x64_S4x2048x16x64_0_2_1_3 : S4x16x2048x64.Transposes [0, 2, 1, 3] S4x2048x16x64
  shapeCasts_S4x2048x16x64_S8192x1024 : S4x2048x16x64.ShapeCasts S8192x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .f32 = 32 ∨ (Rect.block (s := S8192x1024) S512x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S8192x1024.size a
  hwx2_2 : ∀ i : grid2.Coords, EltTy.bits .f32 = 32 ∨ (Rect.block (s := S8192x1024) S512x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x256x64.size a ≤ S4x16x2048x64.size a
  hwx3_0 : ∀ i : grid3.Coords, EltTy.bits .f32 = 32 ∨ (Rect.block (s := S4x16x2048x64) S1x1x256x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x64.size a ≤ S4x16x2048x64.size a
  hwx3_1 : ∀ i : grid3.Coords, EltTy.bits .f32 = 32 ∨ (Rect.block (s := S4x16x2048x64) S1x1x2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x64.size a ≤ S4x16x2048x64.size a
  hwx3_2 : ∀ i : grid3.Coords, EltTy.bits .f32 = 32 ∨ (Rect.block (s := S4x16x2048x64) S1x1x2048x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256x2048.size a ≤ S4x2048x2048.size a
  hwx3_3 : ∀ i : grid3.Coords, EltTy.bits .i32 = 32 ∨ (Rect.block (s := S4x2048x2048) S1x256x2048.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x256x64.size a ≤ S4x16x2048x64.size a
  hwx3_4 : ∀ i : grid3.Coords, EltTy.bits .f32 = 32 ∨ (Rect.block (s := S4x16x2048x64) S1x1x256x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S8192x1024.size a
  hwx4_0 : ∀ i : grid4.Coords, EltTy.bits .f32 = 32 ∨ (Rect.block (s := S8192x1024) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1024.size a ≤ S8192x1024.size a
  hwx4_2 : ∀ i : grid4.Coords, EltTy.bits .f32 = 32 ∨ (Rect.block (s := S8192x1024) S512x1024.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024.size a ≤ S1024.size a
  hwx4_3 : ∀ i : grid4.Coords, EltTy.bits .f32 = 32 ∨ (Rect.block (s := S1024) S1024.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1024.size a ≤ S1024.size a
  hwx4_4 : ∀ i : grid4.Coords, EltTy.bits .f32 = 32 ∨ (Rect.block (s := S1024) S1024.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x1024.size a ≤ S8192x1024.size a
  hwx4_5 : ∀ i : grid4.Coords, EltTy.bits .f32 = 32 ∨ (Rect.block (s := S8192x1024) S512x1024.size (cc4_transform_5 i) (hinb4_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v6) S1x1x256x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v15) S1x1x256x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v17) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18) S512x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v20) S512x1024.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x1x2048x2048 : Shape := ⟨4, ![4, 1, 2048, 2048]⟩
abbrev S4x16x2048 : Shape := ⟨3, ![4, 16, 2048]⟩
abbrev S4x16x2048x1 : Shape := ⟨4, ![4, 16, 2048, 1]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S4x2048x1024, .f32⟩
  | .hbm, ⟨11, _⟩ => ⟨S4x2048x16x64, .f32⟩
  | .hbm, ⟨12, _⟩ => ⟨S4x16x2048x64, .f32⟩
  | .hbm, ⟨13, _⟩ => ⟨S4x2048x1024, .f32⟩
  | .hbm, ⟨14, _⟩ => ⟨S4x2048x16x64, .f32⟩
  | .hbm, ⟨15, _⟩ => ⟨S4x16x2048x64, .f32⟩
  | .hbm, ⟨16, _⟩ => ⟨S4x2048x1024, .f32⟩
  | .hbm, ⟨17, _⟩ => ⟨S4x2048x16x64, .f32⟩
  | .hbm, ⟨18, _⟩ => ⟨S4x16x2048x64, .f32⟩
  | .hbm, ⟨19, _⟩ => ⟨S4x16x2048x2048, .f32⟩
  | .hbm, ⟨20, _⟩ => ⟨S_, .f32⟩
  | .hbm, ⟨21, _⟩ => ⟨S4x16x2048x2048, .f32⟩
  | .hbm, ⟨22, _⟩ => ⟨S4x16x2048x2048, .f32⟩
  | .hbm, ⟨23, _⟩ => ⟨S4x1x2048x2048, .i32⟩
  | .hbm, ⟨24, _⟩ => ⟨S_, .i32⟩
  | .hbm, ⟨25, _⟩ => ⟨S4x1x2048x2048, .i32⟩
  | .hbm, ⟨26, _⟩ => ⟨S4x1x2048x2048, .i1⟩
  | .hbm, ⟨27, _⟩ => ⟨S_, .f32⟩
  | .hbm, ⟨28, _⟩ => ⟨S4x16x2048x2048, .i1⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x64, .f32⟩
  | .hbm, ⟨46, _⟩ => ⟨S4x2048x16x64, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048, .f32⟩
  | .hbm, ⟨52, _⟩ => ⟨S4x2048x1, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S4x2048x1024, .f32⟩
  | .hbm, ⟨57, _⟩ => ⟨S4x2048x1024, .f32⟩
  | .hbm, ⟨58, _⟩ => ⟨S4x2048x1024, .f32⟩
  | .hbm, ⟨59, _⟩ => ⟨S_, .f32⟩
  | .hbm, ⟨60, _⟩ => ⟨S4x2048, .f32⟩
  | .hbm, ⟨61, _⟩ => ⟨S4x2048x1, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S4x2048x1024, .f32⟩
  | .hbm, ⟨66, _⟩ => ⟨S4x2048x1024, .f32⟩
  | .hbm, ⟨67, _⟩ => ⟨S_, .f32⟩
  | .hbm, ⟨68, _⟩ => ⟨S4x2048x1, .f32⟩
  | .hbm, ⟨69, _⟩ => ⟨S4x2048x1, .f32⟩
  | .hbm, ⟨70, _⟩ => ⟨S4x2048x1, .f32⟩
  | .hbm, ⟨71, _⟩ => ⟨S4x2048x1024, .f32⟩
  | .hbm, ⟨72, _⟩ => ⟨S4x2048x1024, .f32⟩
  | .hbm, ⟨73, _⟩ => ⟨S1x1x1024, .f32⟩
  | .hbm, ⟨74, _⟩ => ⟨S4x2048x1024, .f32⟩
  | .hbm, ⟨75, _⟩ => ⟨S4x2048x1024, .f32⟩
  | .hbm, ⟨76, _⟩ => ⟨S1x1x1024, .f32⟩
  | .hbm, ⟨77, _⟩ => ⟨S4x2048x1024, .f32⟩
  | .hbm, ⟨78, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S4x2048x2048_S4x1x2048x2048_0_2_3 : S4x2048x2048.BroadcastsInDim S4x1x2048x2048 (![0, 2, 3] : Fin 3 → Fin S4x1x2048x2048.rank)
  bcast_S_S4x1x2048x2048 : S_.BroadcastsInDim S4x1x2048x2048 (![] : Fin 0 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KFold.lean ====
/-
  The contents of the buffers at the boundaries of the idealized kernel's @main, read back to the arguments.

  @main is six stretches of host operations around five kernel regions. The generated frame names the contents
  of a core's buffers at each boundary as a fold: `Gen.W1` after the first stretch, `Gen.W2` after region 0, …,
  `Gen.W11` after the last stretch; `Gen.V1`, `Gen.V3`, …, `Gen.V9` are the contents the five regions are
  entered with. A stretch changes only the buffers its operations write, and a region only its output array, so
  each buffer a region reads is found by walking the fold back to where it was written:
    * the rows the three projections read are the activations with batch and position flattened, and their
      weights the transposed weight matrices;
    * the attention region reads, per projection, that region's output array cast to [4, 2048, 16, 64] and
      transposed to [4, 16, 2048, 64], and the mask as launched;
    * the last region reads the attention output transposed and flattened back to rows, the transposed output
      weight, the flattened residual, and the scale and shift vectors as launched;
    * the result is the last region's output array cast back to [4, 2048, 1024].
  Every statement holds at any float instance.
-/
import proofs.«118998_j18983755448471_1_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A stretch of host operations leaves a buffer none of its operations writes as it found it. -/
local macro "kept[" ops:ident ", " b:term "]" : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The arguments, as far along the fold as a later segment reads them

No host operation and no region writes an argument, so at every boundary an argument's buffer holds what it
was launched with: each step back is either a region that does not own the buffer or a stretch that does not
write it. -/

theorem W2_arg0 (c : Dev nD) : W2 m ρ c (Proc.devRef .tc main_arg0) = m ((c : Thread nD τ).loc main_arg0) :=
  (W2_of_ne m ρ c main_arg0 (by decide)).trans kept[hostOps0, main_arg0]
theorem W4_arg0 (c : Dev nD) : W4 m ρ c (Proc.devRef .tc main_arg0) = m ((c : Thread nD τ).loc main_arg0) :=
  ((W4_of_ne m ρ c main_arg0 (by decide)).trans kept[hostOps1, main_arg0]).trans (W2_arg0 m ρ c)
theorem W6_arg0 (c : Dev nD) : W6 m ρ c (Proc.devRef .tc main_arg0) = m ((c : Thread nD τ).loc main_arg0) :=
  ((W6_of_ne m ρ c main_arg0 (by decide)).trans kept[hostOps2, main_arg0]).trans (W4_arg0 m ρ c)
theorem W8_arg0 (c : Dev nD) : W8 m ρ c (Proc.devRef .tc main_arg0) = m ((c : Thread nD τ).loc main_arg0) :=
  ((W8_of_ne m ρ c main_arg0 (by decide)).trans kept[hostOps3, main_arg0]).trans (W6_arg0 m ρ c)

theorem W2_arg3 (c : Dev nD) : W2 m ρ c (Proc.devRef .tc main_arg3) = m ((c : Thread nD τ).loc main_arg3) :=
  (W2_of_ne m ρ c main_arg3 (by decide)).trans kept[hostOps0, main_arg3]
theorem W4_arg3 (c : Dev nD) : W4 m ρ c (Proc.devRef .tc main_arg3) = m ((c : Thread nD τ).loc main_arg3) :=
  ((W4_of_ne m ρ c main_arg3 (by decide)).trans kept[hostOps1, main_arg3]).trans (W2_arg3 m ρ c)
theorem W6_arg3 (c : Dev nD) : W6 m ρ c (Proc.devRef .tc main_arg3) = m ((c : Thread nD τ).loc main_arg3) :=
  ((W6_of_ne m ρ c main_arg3 (by decide)).trans kept[hostOps2, main_arg3]).trans (W4_arg3 m ρ c)

theorem W2_arg5 (c : Dev nD) : W2 m ρ c (Proc.devRef .tc main_arg5) = m ((c : Thread nD τ).loc main_arg5) :=
  (W2_of_ne m ρ c main_arg5 (by decide)).trans kept[hostOps0, main_arg5]

theorem W2_arg6 (c : Dev nD) : W2 m ρ c (Proc.devRef .tc main_arg6) = m ((c : Thread nD τ).loc main_arg6) :=
  (W2_of_ne m ρ c main_arg6 (by decide)).trans kept[hostOps0, main_arg6]
theorem W4_arg6 (c : Dev nD) : W4 m ρ c (Proc.devRef .tc main_arg6) = m ((c : Thread nD τ).loc main_arg6) :=
  ((W4_of_ne m ρ c main_arg6 (by decide)).trans kept[hostOps1, main_arg6]).trans (W2_arg6 m ρ c)

theorem W2_arg7 (c : Dev nD) : W2 m ρ c (Proc.devRef .tc main_arg7) = m ((c : Thread nD τ).loc main_arg7) :=
  (W2_of_ne m ρ c main_arg7 (by decide)).trans kept[hostOps0, main_arg7]
theorem W4_arg7 (c : Dev nD) : W4 m ρ c (Proc.devRef .tc main_arg7) = m ((c : Thread nD τ).loc main_arg7) :=
  ((W4_of_ne m ρ c main_arg7 (by decide)).trans kept[hostOps1, main_arg7]).trans (W2_arg7 m ρ c)
theorem W6_arg7 (c : Dev nD) : W6 m ρ c (Proc.devRef .tc main_arg7) = m ((c : Thread nD τ).loc main_arg7) :=
  ((W6_of_ne m ρ c main_arg7 (by decide)).trans kept[hostOps2, main_arg7]).trans (W4_arg7 m ρ c)
theorem W8_arg7 (c : Dev nD) : W8 m ρ c (Proc.devRef .tc main_arg7) = m ((c : Thread nD τ).loc main_arg7) :=
  ((W8_of_ne m ρ c main_arg7 (by decide)).trans kept[hostOps3, main_arg7]).trans (W6_arg7 m ρ c)

theorem W2_arg8 (c : Dev nD) : W2 m ρ c (Proc.devRef .tc main_arg8) = m ((c : Thread nD τ).loc main_arg8) :=
  (W2_of_ne m ρ c main_arg8 (by decide)).trans kept[hostOps0, main_arg8]
theorem W4_arg8 (c : Dev nD) : W4 m ρ c (Proc.devRef .tc main_arg8) = m ((c : Thread nD τ).loc main_arg8) :=
  ((W4_of_ne m ρ c main_arg8 (by decide)).trans kept[hostOps1, main_arg8]).trans (W2_arg8 m ρ c)
theorem W6_arg8 (c : Dev nD) : W6 m ρ c (Proc.devRef .tc main_arg8) = m ((c : Thread nD τ).loc main_arg8) :=
  ((W6_of_ne m ρ c main_arg8 (by decide)).trans kept[hostOps2, main_arg8]).trans (W4_arg8 m ρ c)
theorem W8_arg8 (c : Dev nD) : W8 m ρ c (Proc.devRef .tc main_arg8) = m ((c : Thread nD τ).loc main_arg8) :=
  ((W8_of_ne m ρ c main_arg8 (by decide)).trans kept[hostOps3, main_arg8]).trans (W6_arg8 m ρ c)

theorem W2_arg9 (c : Dev nD) : W2 m ρ c (Proc.devRef .tc main_arg9) = m ((c : Thread nD τ).loc main_arg9) :=
  (W2_of_ne m ρ c main_arg9 (by decide)).trans kept[hostOps0, main_arg9]
theorem W4_arg9 (c : Dev nD) : W4 m ρ c (Proc.devRef .tc main_arg9) = m ((c : Thread nD τ).loc main_arg9) :=
  ((W4_of_ne m ρ c main_arg9 (by decide)).trans kept[hostOps1, main_arg9]).trans (W2_arg9 m ρ c)
theorem W6_arg9 (c : Dev nD) : W6 m ρ c (Proc.devRef .tc main_arg9) = m ((c : Thread nD τ).loc main_arg9) :=
  ((W6_of_ne m ρ c main_arg9 (by decide)).trans kept[hostOps2, main_arg9]).trans (W4_arg9 m ρ c)
theorem W8_arg9 (c : Dev nD) : W8 m ρ c (Proc.devRef .tc main_arg9) = m ((c : Thread nD τ).loc main_arg9) :=
  ((W8_of_ne m ρ c main_arg9 (by decide)).trans kept[hostOps3, main_arg9]).trans (W6_arg9 m ρ c)

/-! ## What the three projection regions read -/

/-- Region 0 reads the first activations as 8192 rows … -/
theorem V1_v0 (c : Dev nD) : V1 m ρ c main_v0
    = shapeCast S8192x1024 (m ((c : Thread nD τ).loc main_arg0)) shapeCasts_S4x2048x1024_S8192x1024 := by
  show StableHlo.after hostOps0 (W0 m ρ c) (Proc.devRef .tc main_v0) = _
  after_results <;> rfl
/-- … and the first weight matrix transposed. -/
theorem V1_v3 (c : Dev nD) : V1 m ρ c main_v3
    = transpose S1024x1024 [1, 0] (m ((c : Thread nD τ).loc main_arg4)) transposes_S1024x1024_S1024x1024_1_0 := by
  show StableHlo.after hostOps0 (W0 m ρ c) (Proc.devRef .tc main_v3) = _
  after_results <;> rfl

/-- The second activations were flattened in the first stretch; region 0 and the second stretch leave them. -/
theorem V3_v1 (c : Dev nD) : V3 m ρ c main_v1
    = shapeCast S8192x1024 (m ((c : Thread nD τ).loc main_arg1)) shapeCasts_S4x2048x1024_S8192x1024 :=
  (kept[hostOps1, main_v1]).trans ((W2_of_ne m ρ c main_v1 (by decide)).trans (by
    show StableHlo.after hostOps0 (W0 m ρ c) (Proc.devRef .tc main_v1) = _
    after_results <;> rfl))
theorem V3_v7 (c : Dev nD) : V3 m ρ c main_v7
    = transpose S1024x1024 [1, 0] (m ((c : Thread nD τ).loc main_arg5)) transposes_S1024x1024_S1024x1024_1_0 := by
  rw [← W2_arg5 m ρ c]
  show StableHlo.after hostOps1 (W2 m ρ c) (Proc.devRef .tc main_v7) = _
  after_results <;> rfl

theorem V5_v2 (c : Dev nD) : V5 m ρ c main_v2
    = shapeCast S8192x1024 (m ((c : Thread nD τ).loc main_arg2)) shapeCasts_S4x2048x1024_S8192x1024 :=
  (kept[hostOps2, main_v2]).trans ((W4_of_ne m ρ c main_v2 (by decide)).trans ((kept[hostOps1, main_v2]).trans
    ((W2_of_ne m ρ c main_v2 (by decide)).trans (by
      show StableHlo.after hostOps0 (W0 m ρ c) (Proc.devRef .tc main_v2) = _
      after_results <;> rfl))))
theorem V5_v11 (c : Dev nD) : V5 m ρ c main_v11
    = transpose S1024x1024 [1, 0] (m ((c : Thread nD τ).loc main_arg6)) transposes_S1024x1024_S1024x1024_1_0 := by
  rw [← W4_arg6 m ρ c]
  show StableHlo.after hostOps2 (W4 m ρ c) (Proc.devRef .tc main_v11) = _
  after_results <;> rfl

/-! ## What the attention region reads -/

/-- The queries: region 0's output array cast to [4, 2048, 16, 64] and transposed to [4, 16, 2048, 64], left
    alone by everything after the second stretch. -/
theorem V7_v6 (c : Dev nD) : V7 m ρ c main_v6
    = transpose S4x16x2048x64 [0, 2, 1, 3] (shapeCast S4x2048x16x64 ((dat0 (V1 m ρ) c).arrAt 2 cfg0.N)
        shapeCasts_S8192x1024_S4x2048x16x64) transposes_S4x2048x16x64_S4x16x2048x64_0_2_1_3 :=
  (kept[hostOps3, main_v6]).trans ((W6_of_ne m ρ c main_v6 (by decide)).trans ((kept[hostOps2, main_v6]).trans
    ((W4_of_ne m ρ c main_v6 (by decide)).trans (by
      rw [← W2_arr m ρ c 2]
      show StableHlo.after hostOps1 (W2 m ρ c) (Proc.devRef .tc main_v6) = _
      after_results <;> rfl))))
/-- The keys: region 1's output array, the same way. -/
theorem V7_v10 (c : Dev nD) : V7 m ρ c main_v10
    = transpose S4x16x2048x64 [0, 2, 1, 3] (shapeCast S4x2048x16x64 ((dat1 (V3 m ρ) c).arrAt 2 cfg1.N)
        shapeCasts_S8192x1024_S4x2048x16x64) transposes_S4x2048x16x64_S4x16x2048x64_0_2_1_3 :=
  (kept[hostOps3, main_v10]).trans ((W6_of_ne m ρ c main_v10 (by decide)).trans (by
    rw [← W4_arr m ρ c 2]
    show StableHlo.after hostOps2 (W4 m ρ c) (Proc.devRef .tc main_v10) = _
    after_results <;> rfl))
/-- The values: region 2's output array, the same way. -/
theorem V7_v14 (c : Dev nD) : V7 m ρ c main_v14
    = transpose S4x16x2048x64 [0, 2, 1, 3] (shapeCast S4x2048x16x64 ((dat2 (V5 m ρ) c).arrAt 2 cfg2.N)
        shapeCasts_S8192x1024_S4x2048x16x64) transposes_S4x2048x16x64_S4x16x2048x64_0_2_1_3 := by
  rw [← W6_arr m ρ c 2]
  show StableHlo.after hostOps3 (W6 m ρ c) (Proc.devRef .tc main_v14) = _
  after_results <;> rfl
/-- The mask as launched. -/
theorem V7_arg3 (c : Dev nD) : V7 m ρ c main_arg3 = m ((c : Thread nD τ).loc main_arg3) :=
  (kept[hostOps3, main_arg3]).trans (W6_arg3 m ρ c)

/-! ## What the last region reads, and the result -/

/-- The attention output transposed back to [4, 2048, 16, 64] and flattened to 8192 rows. -/
theorem V9_v17 (c : Dev nD) : V9 m ρ c main_v17
    = shapeCast S8192x1024 (transpose S4x2048x16x64 [0, 2, 1, 3] ((dat3 (V7 m ρ) c).arrAt 4 cfg3.N)
        transposes_S4x16x2048x64_S4x2048x16x64_0_2_1_3) shapeCasts_S4x2048x16x64_S8192x1024 := by
  rw [← W8_arr m ρ c 4]
  show StableHlo.after hostOps4 (W8 m ρ c) (Proc.devRef .tc main_v17) = _
  after_results <;> rfl
/-- The residual: the first activations flattened. -/
theorem V9_v18 (c : Dev nD) : V9 m ρ c main_v18
    = shapeCast S8192x1024 (m ((c : Thread nD τ).loc main_arg0)) shapeCasts_S4x2048x1024_S8192x1024 := by
  rw [← W8_arg0 m ρ c]
  show StableHlo.after hostOps4 (W8 m ρ c) (Proc.devRef .tc main_v18) = _
  after_results <;> rfl
/-- The output weight transposed. -/
theorem V9_v19 (c : Dev nD) : V9 m ρ c main_v19
    = transpose S1024x1024 [1, 0] (m ((c : Thread nD τ).loc main_arg7)) transposes_S1024x1024_S1024x1024_1_0 := by
  rw [← W8_arg7 m ρ c]
  show StableHlo.after hostOps4 (W8 m ρ c) (Proc.devRef .tc main_v19) = _
  after_results <;> rfl
theorem V9_arg8 (c : Dev nD) : V9 m ρ c main_arg8 = m ((c : Thread nD τ).loc main_arg8) :=
  (kept[hostOps4, main_arg8]).trans (W8_arg8 m ρ c)
theorem V9_arg9 (c : Dev nD) : V9 m ρ c main_arg9 = m ((c : Thread nD τ).loc main_arg9) :=
  (kept[hostOps4, main_arg9]).trans (W8_arg9 m ρ c)

/-- The result: the last region's output array cast back to [4, 2048, 1024]. -/
theorem W11_v21 (c : Dev nD) : W11 m ρ c (Proc.devRef .tc main_v21)
    = shapeCast S4x2048x1024 ((dat4 (V9 m ρ) c).arrAt 5 cfg4.N) shapeCasts_S8192x1024_S4x2048x1024 := by
  rw [← W10_arr m ρ c 5]
  show StableHlo.after hostOps5 (W10 m ρ c) (Proc.devRef .tc main_v21) = _
  after_results <;> rfl

end Cert.KernelIdeal.Gen

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Spec.lean ====
/-
  The specification both programs are compared with, index by index, on the extended reals.

  Multi-head attention over activations [4, 2048, 1024] with 16 heads of width 64:
  three projections  x · Wᵀ  split into heads, for every (batch, head, query row) the softmax over the 2048
  keys of the masked and scaled scores, its product with the values, the heads merged back, the output
  projection plus the residual, and a LayerNorm over the 1024 features with scale and shift.
  Every function here is stated over explicit coordinates (`…At`) and then packaged over the array index.
-/
import Idealize.ShloMosaic.PureOps.Ideal
import Idealize.ShloMosaic.Lib.ValueIdx

noncomputable section

namespace Cert.Spec

open Idealize.ShloMosaic Idealize.ShloMosaic.ValueIdx

/-- activations [batch, position, feature] -/
abbrev SX : Shape := ⟨3, ![4, 2048, 1024]⟩
/-- the mask [batch, query, key] -/
abbrev SM : Shape := ⟨3, ![4, 2048, 2048]⟩
/-- a weight matrix -/
abbrev SW : Shape := ⟨2, ![1024, 1024]⟩
/-- scale and shift vectors -/
abbrev SG : Shape := ⟨1, ![1024]⟩
/-- activations with batch and position flattened into 8192 rows -/
abbrev SR : Shape := ⟨2, ![8192, 1024]⟩
/-- per-head arrays [batch, head, position, head feature] -/
abbrev SH : Shape := ⟨4, ![4, 16, 2048, 64]⟩

/-! ## Rows times a matrix -/

/-- Entry (p, q) of the product of the rows `X` [8192, 1024] with a matrix stored [in, out]. -/
def linearAt (X : SR.Idx → EReal) (Wt : SW.Idx → EReal) (p : Fin 8192) (q : Fin 1024) : EReal :=
  ∑ k : Fin 1024, X (ix2 p k) * Wt (ix2 k q)

def linear (X : SR.Idx → EReal) (Wt : SW.Idx → EReal) : SR.Idx → EReal :=
  fun j => linearAt X Wt (j 0) (j 1)

/-- Entry (b, h, s, d) of the projection x · Wᵀ (W stored [out, in]) split into heads: output feature h·64 + d. -/
def projHAt (x : SX.Idx → EReal) (W : SW.Idx → EReal) (b : Fin 4) (h : Fin 16) (s : Fin 2048) (d : Fin 64) : EReal :=
  ∑ k : Fin 1024, x (ix3 b s k) * W (ix2 (⟨h.val * 64 + d.val, by have := h.isLt; have := d.isLt; omega⟩ : Fin 1024) k)

def projH (x : SX.Idx → EReal) (W : SW.Idx → EReal) : SH.Idx → EReal :=
  fun j => projHAt x W (j 0) (j 1) (j 2) (j 3)

/-! ## One query row of attention -/

/-- The maximum of a row of 2048 scores, as the fold of `max` from −∞. -/
def rowMax (s : Fin 2048 → EReal) : EReal :=
  (Finset.univ : Finset (Fin 2048)).fold max (Ideal.ofBits .f32 0xFF800000#32) s

/-- The softmax of a row: exp (s j − max s) over the sum of those exponentials. -/
def softmaxRow (s : Fin 2048 → EReal) (j : Fin 2048) : EReal :=
  Ideal.div (Ideal.exp (s j - rowMax s)) (∑ k : Fin 2048, Ideal.exp (s k - rowMax s))

/-- The score of query i against key j in head h of batch b: −10⁹ where the mask is 1, else q · k / 8
    (the product with the exact binary 1/8). -/
def scoreAt (Q K : SH.Idx → EReal) (M : SM.Idx → BitVec 32) (b : Fin 4) (h : Fin 16) (i j : Fin 2048) : EReal :=
  Scalar.select (IntOp.cmpi .eq (M (ix3 b i j)) 1#32) (Ideal.ofBits .f32 0xCE6E6B28#32)
    ((∑ d : Fin 64, Q (ix4 b h i d) * K (ix4 b h j d)) * Ideal.ofBits .f32 0x3E000000#32)

/-- The attention output: the softmax row times the values. -/
def attnAt (Q K V : SH.Idx → EReal) (M : SM.Idx → BitVec 32) (b : Fin 4) (h : Fin 16) (i : Fin 2048) (d : Fin 64) : EReal :=
  ∑ j : Fin 2048, softmaxRow (scoreAt Q K M b h i) j * V (ix4 b h j d)

def attn (Q K V : SH.Idx → EReal) (M : SM.Idx → BitVec 32) : SH.Idx → EReal :=
  fun x => attnAt Q K V M (x 0) (x 1) (x 2) (x 3)

/-! ## LayerNorm of a row of 1024 features -/

/-- The mean of a row: its sum divided by 1024. -/
def mean (y : Fin 1024 → EReal) : EReal :=
  Ideal.div (∑ j : Fin 1024, y j) (Ideal.ofBits .f32 0x44800000#32)

/-- (y − μ) · rsqrt (var + ε) · γ + β at feature e, the variance the mean of the squared deviations. -/
def lnRow (y g be : Fin 1024 → EReal) (e : Fin 1024) : EReal :=
  (y e - mean y) * Ideal.rsqrt (mean (fun j => (y j - mean y) * (y j - mean y)) + Ideal.ofBits .f32 0x3727C5AC#32) * g e + be e

/-- Output projection of the rows `X` by a matrix stored [in, out], plus the residual rows, LayerNorm'd. -/
def olnAt (X : SR.Idx → EReal) (Wt : SW.Idx → EReal) (R : SR.Idx → EReal) (g be : SG.Idx → EReal)
    (p : Fin 8192) (e : Fin 1024) : EReal :=
  lnRow (fun e' => linearAt X Wt p e' + R (ix2 p e')) (fun e' => g (ix1 e')) (fun e' => be (ix1 e')) e

def oln (X : SR.Idx → EReal) (Wt : SW.Idx → EReal) (R : SR.Idx → EReal) (g be : SG.Idx → EReal) : SR.Idx → EReal :=
  fun j => olnAt X Wt R g be (j 0) (j 1)

/-- The heads merged back: feature k of position s comes from head k / 64, head feature k % 64. -/
def mergeAt (C : SH.Idx → EReal) (b : Fin 4) (s : Fin 2048) (k : Fin 1024) : EReal :=
  C (ix4 b (⟨k.val / 64, by have := k.isLt; omega⟩ : Fin 16) s (⟨k.val % 64, by omega⟩ : Fin 64))

/-- The same on [batch, position, feature] arrays, the weight stored [out, in]. -/
def olnHAt (C : SH.Idx → EReal) (W : SW.Idx → EReal) (x : SX.Idx → EReal) (g be : SG.Idx → EReal)
    (b : Fin 4) (s : Fin 2048) (e : Fin 1024) : EReal :=
  lnRow (fun e' => (∑ k : Fin 1024, mergeAt C b s k * W (ix2 e' k)) + x (ix3 b s e'))
    (fun e' => g (ix1 e')) (fun e' => be (ix1 e')) e

/-! ## The whole layer -/

def out (x0 x1 x2 : SX.Idx → EReal) (x3 : SM.Idx → BitVec 32) (x4 x5 x6 x7 : SW.Idx → EReal) (x8 x9 : SG.Idx → EReal) :
    SX.Idx → EReal :=
  fun j => olnHAt (attn (projH x0 x4) (projH x1 x5) (projH x2 x6) x3) x7 x0 x8 x9 (j 0) (j 1) (j 2)

end Cert.Spec

end
-- ==== Proof.LinPay.lean ====
/-
  The three linear kernels' arithmetic, read at one entry of the block a grid point computes.

  Each of the three kernels loads a block x of 512 rows of the activations [512, 1024] and the whole weight matrix
  w [1024, 1024], narrows both to bf16 (on the extended reals a change of float format is the identity), and
  multiplies them into a zero accumulator. Entry (p, q) of what it stores is therefore

      ∑ k < 1024, x (p, k) · w (k, q).

  If row p of the block is row r p of the array X the block was cut from, and w is the matrix W, that entry is
  entry (r p, q) of the product X · W of the specification. The three kernels have the same body, so the sum is
  proved once for the body and cited for each.
-/
import proofs.«118998_j18983755448471_1_alg».proof.Proof.Gen.KernelIdeal.Skeleton
import proofs.«118998_j18983755448471_1_alg».proof.Proof.LibPlainDot
import proofs.«118998_j18983755448471_1_alg».proof.Proof.Spec
import Idealize.ShloMosaic.Lib.Pipeline.Value

noncomputable section

namespace Cert.KernelIdeal.Gen

open Idealize.ShloMosaic Idealize.ShloMosaic.ValueIdx

/-- The two zero offsets of a whole-block access, as the constant function. -/
theorem lin_zero_offsets : (![0, 0] : Fin 2 → Nat) = fun _ => 0 := funext fun a => by fin_cases a <;> rfl

/-- The body shared by the three kernels at entry (p, q): the casts to the same shape and the narrowing to bf16
    change nothing, and the product into the zero accumulator is the sum over the contracted axis. -/
theorem lin_product_apply (x : Vec Ideal S512x1024 .f32) (w : Vec Ideal S1024x1024 .f32)
    (p : Fin 512) (q : Fin 1024) :
    matmul dot_S512x1024_S1024x1024_S512x1024_1_0_0_1_n_n none
        (truncf .bf16 (shapeCast S512x1024 x shapeCasts_S512x1024_S512x1024) bitsLt_bf16_f32)
        (truncf .bf16 (shapeCast S1024x1024 w shapeCasts_S1024x1024_S1024x1024) bitsLt_bf16_f32)
        (constant (F := Ideal) S512x1024 .f32 0x00000000#32) (ix2 p q)
      = ∑ k : Fin 1024, x (ix2 p k) * w (ix2 k q) := by
  rw [shapeCast_self, shapeCast_self]
  exact Cert.LibPlainDot.matmul_zero_apply (M := 512) (K := 1024) (N := 1024) none x w p q

/-- The first kernel's stored value at entry (p, q). -/
theorem k0_pay1_apply (x : Vec Ideal S512x1024 .f32) (w : Vec Ideal S1024x1024 .f32) (p : Fin 512) (q : Fin 1024) :
    k0_pay1 x w (ix2 p q) = ∑ k : Fin 1024, x (ix2 p k) * w (ix2 k q) := by
  unfold k0_pay1
  exact lin_product_apply x w p q

/-- The second kernel's. -/
theorem k1_pay1_apply (x : Vec Ideal S512x1024 .f32) (w : Vec Ideal S1024x1024 .f32) (p : Fin 512) (q : Fin 1024) :
    k1_pay1 x w (ix2 p q) = ∑ k : Fin 1024, x (ix2 p k) * w (ix2 k q) := by
  unfold k1_pay1
  exact lin_product_apply x w p q

/-- The third kernel's. -/
theorem k2_pay1_apply (x : Vec Ideal S512x1024 .f32) (w : Vec Ideal S1024x1024 .f32) (p : Fin 512) (q : Fin 1024) :
    k2_pay1 x w (ix2 p q) = ∑ k : Fin 1024, x (ix2 p k) * w (ix2 k q) := by
  unfold k2_pay1
  exact lin_product_apply x w p q

/-- A sum over k of block entries is the specification's product entry, once row p of the block is row r of X. -/
theorem lin_sum_eq_linearAt (X : S8192x1024.Idx → EReal) (W : S1024x1024.Idx → EReal)
    (x : Vec Ideal S512x1024 .f32) (p : Fin 512) (q : Fin 1024) (r : Fin 8192)
    (hx : ∀ k : Fin 1024, x (ix2 p k) = X (ix2 r k)) :
    (∑ k : Fin 1024, x (ix2 p k) * W (ix2 k q) : EReal) = Cert.Spec.linearAt X W r q :=
  Finset.sum_congr rfl fun k _ => congrArg (· * W (ix2 k q)) (hx k)

/-- The first kernel's block at index j is the product X · W at (r (j 0), j 1), when the block's rows are the rows
    r of X and its second operand is W. -/
theorem lin0_block_entry (X : S8192x1024.Idx → EReal) (W : S1024x1024.Idx → EReal)
    (x : Vec Ideal S512x1024 .f32) (w : Vec Ideal S1024x1024 .f32) (r : Fin 512 → Fin 8192)
    (hx : ∀ (p : Fin 512) (k : Fin 1024), x (ix2 p k) = X (ix2 (r p) k)) (hw : w = W) (j : S512x1024.Idx) :
    k0_pay1 x w j = Cert.Spec.linearAt X W (r (j 0)) (j 1) := by
  obtain ⟨p, q, rfl⟩ : ∃ (p : Fin 512) (q : Fin 1024), j = ix2 p q := ⟨j 0, j 1, eq_ix2 j⟩
  subst hw
  exact (k0_pay1_apply x w p q).trans (lin_sum_eq_linearAt X w x p q (r p) (hx p))

/-- The second kernel's. -/
theorem lin1_block_entry (X : S8192x1024.Idx → EReal) (W : S1024x1024.Idx → EReal)
    (x : Vec Ideal S512x1024 .f32) (w : Vec Ideal S1024x1024 .f32) (r : Fin 512 → Fin 8192)
    (hx : ∀ (p : Fin 512) (k : Fin 1024), x (ix2 p k) = X (ix2 (r p) k)) (hw : w = W) (j : S512x1024.Idx) :
    k1_pay1 x w j = Cert.Spec.linearAt X W (r (j 0)) (j 1) := by
  obtain ⟨p, q, rfl⟩ : ∃ (p : Fin 512) (q : Fin 1024), j = ix2 p q := ⟨j 0, j 1, eq_ix2 j⟩
  subst hw
  exact (k1_pay1_apply x w p q).trans (lin_sum_eq_linearAt X w x p q (r p) (hx p))

/-- The third kernel's. -/
theorem lin2_block_entry (X : S8192x1024.Idx → EReal) (W : S1024x1024.Idx → EReal)
    (x : Vec Ideal S512x1024 .f32) (w : Vec Ideal S1024x1024 .f32) (r : Fin 512 → Fin 8192)
    (hx : ∀ (p : Fin 512) (k : Fin 1024), x (ix2 p k) = X (ix2 (r p) k)) (hw : w = W) (j : S512x1024.Idx) :
    k2_pay1 x w j = Cert.Spec.linearAt X W (r (j 0)) (j 1) := by
  obtain ⟨p, q, rfl⟩ : ∃ (p : Fin 512) (q : Fin 1024), j = ix2 p q := ⟨j 0, j 1, eq_ix2 j⟩
  subst hw
  exact (k2_pay1_apply x w p q).trans (lin_sum_eq_linearAt X w x p q (r p) (hx p))

end Cert.KernelIdeal.Gen

end
-- ==== Proof.Lin0.lean ====
/-
  The first linear region of the kernel: its output array after the run is the product of the specification.

  The region runs on a grid of 16 points. Point t stages rows t·512 … t·512 + 511 of the activations
  [8192, 1024] and the whole weight matrix [1024, 1024], multiplies them, and writes the result back to rows
  t·512 … t·512 + 511 of the output array [8192, 1024]. So

    * row p of the activations' block at point t is row t·512 + p of the activations, the weight block is the
      weight matrix itself, and entry (p, q) of what point t writes back is ∑ k, X (t·512 + p, k) · W (k, q):
      block t of the product X · W;
    * row r of the output is covered by the block of point r / 512, so the sixteen blocks cover the array,

  and an array every index of which some point's block covers, each block written with the block of one function,
  ends holding that function.
-/
import proofs.«118998_j18983755448471_1_alg».proof.Proof.Gen.KernelIdeal.Frame
import proofs.«118998_j18983755448471_1_alg».proof.Proof.LinPay
import Idealize.ShloMosaic.Lib.Pipeline.Value

noncomputable section

namespace Cert.KernelIdeal.Gen

open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three index maps over the grid: at point t the activations' and the output's block index is (t, 0), the
    weight's is (0, 0). -/
theorem lin0_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row of the array under row p of the block of point t: t·512 + p. -/
def lin0_row (t : Fin cfg0.N) (p : Fin 512) : Fin 8192 :=
  ⟨t.val * 512 + p.val, by have := t.isLt; have hN : cfg0.N = 16 := N_0; have := p.isLt; omega⟩

/-- The activations' block at point t, entry (p, k), is the activations at (t·512 + p, k). -/
theorem lin0_rows_block (c : Dev nD) (t : Fin cfg0.N) (p : Fin 512) (k : Fin 1024) :
    (iblk0 V c 0 t : Vec Ideal S512x1024 .f32) (ix2 p k)
      = (V c main_v0 : S8192x1024.Idx → EReal) (ix2 (lin0_row t p) k) := by
  obtain ⟨e0, e1, -, -, -, -⟩ := lin0_index_maps t
  show V c main_v0 (((cfg0.win 0).blk t).view.emb (ix2 p k)) = V c main_v0 _
  refine congrArg (V c main_v0) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

/-- The weight's block at every point is the whole weight matrix. -/
theorem lin0_weight_block (c : Dev nD) (t : Fin cfg0.N) :
    (iblk0 V c 1 t : Vec Ideal S1024x1024 .f32) = (V c main_v3 : S1024x1024.Idx → EReal) := by
  obtain ⟨-, -, e2, e3, -, -⟩ := lin0_index_maps t
  funext j
  show V c main_v3 (((cfg0.win 1).blk t).view.emb j) = V c main_v3 j
  refine congrArg (V c main_v3) (funext fun a => Fin.ext ?_)
  match a with
  | ⟨0, _⟩ => show win0_1.index t (0 : Fin 2) * 1024 + 1 * (j 0).val = (j 0).val; omega
  | ⟨1, _⟩ => show win0_1.index t (1 : Fin 2) * 1024 + 1 * (j 1).val = (j 1).val; omega

/-- What point t writes back is block t of the product: the body's one store covers its buffer, its loads read
    the two blocks, and entry j of the stored product is the product of the arrays at the index under j. -/
theorem lin0_flushed (c : Dev nD) (t : Fin cfg0.N) :
    (dat0 (F := Ideal) V c).flushed 2 t
      = ((cfg0.win 2).blk t).view.read (Elt Ideal) (Cert.Spec.linear (V c main_v0) (V c main_v3)) := by
  show (cfg0.win 2).cut (grid0.coords t) ((dat0 V c).after 2 t) = _
  rw [after0_2]
  unfold out0_2
  rw [View.canon_unit_zero lin_zero_offsets]
  simp only [View.ld_unit_zero (S := S512x1024) lin_zero_offsets, View.ld_unit_zero (S := S1024x1024) lin_zero_offsets]
  obtain ⟨-, -, -, -, e4, e5⟩ := lin0_index_maps t
  funext j
  refine (lin0_block_entry (V c main_v0) (V c main_v3) (iblk0 V c 0 t) (iblk0 V c 1 t) (lin0_row t)
    (lin0_rows_block V c t) (lin0_weight_block V c t) j).trans ?_
  show Cert.Spec.linearAt (V c main_v0) (V c main_v3) _ _
    = Cert.Spec.linearAt (V c main_v0) (V c main_v3)
        ((((cfg0.win 2).blk t).view.emb j) 0) ((((cfg0.win 2).blk t).view.emb j) 1)
  refine congrArg₂ (Cert.Spec.linearAt (V c main_v0) (V c main_v3)) (Fin.ext ?_) (Fin.ext ?_)
  · show t.val * 512 + (j 0).val = win0_2.index t (0 : Fin 2) * 512 + 1 * (j 0).val; omega
  · show (j 1).val = win0_2.index t (1 : Fin 2) * 1024 + 1 * (j 1).val; omega

/-- An index of the output is in point t's block iff each coordinate is in the block's range on its axis. -/
theorem lin0_mem_block (t : Fin cfg0.N) (i : S8192x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v4).slice (win0_2.rect t)).set ↔ _
  rw [View.set_slice_whole, Rect.mem_set_unit]
  exact Iff.rfl

/-- Every index of the output is in the block of a point that writes back: row r is in the block of point r / 512. -/
theorem lin0_cover (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, e4, e5⟩ := lin0_index_maps t
  refine ⟨t, flush0_2 t, ?_⟩
  rw [lin0_mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The output array of the region after its run is the product of the activations and the weight as the region
    found them. -/
theorem lin0_final (c : Dev nD) :
    (dat0 (F := Ideal) V c).arrAt 2 cfg0.N = Cert.Spec.linear (V c main_v0) (V c main_v3) :=
  (dat0 V c).arrAt_eq_of_cover 2 (Cert.Spec.linear (V c main_v0) (V c main_v3)) (fun t _ => lin0_flushed V c t) lin0_cover

end Cert.KernelIdeal.Gen

end
-- ==== Proof.Lin1.lean ====
/-
  The second linear region of the kernel: its output array after the run is the product of the specification.

  The region runs on a grid of 16 points. Point t stages rows t·512 … t·512 + 511 of the activations
  [8192, 1024] and the whole weight matrix [1024, 1024], multiplies them, and writes the result back to rows
  t·512 … t·512 + 511 of the output array [8192, 1024]. So

    * row p of the activations' block at point t is row t·512 + p of the activations, the weight block is the
      weight matrix itself, and entry (p, q) of what point t writes back is ∑ k, X (t·512 + p, k) · W (k, q):
      block t of the product X · W;
    * row r of the output is covered by the block of point r / 512, so the sixteen blocks cover the array,

  and an array every index of which some point's block covers, each block written with the block of one function,
  ends holding that function.
-/
import proofs.«118998_j18983755448471_1_alg».proof.Proof.Gen.KernelIdeal.Frame
import proofs.«118998_j18983755448471_1_alg».proof.Proof.LinPay
import Idealize.ShloMosaic.Lib.Pipeline.Value

noncomputable section

namespace Cert.KernelIdeal.Gen

open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three index maps over the grid: at point t the activations' and the output's block index is (t, 0), the
    weight's is (0, 0). -/
theorem lin1_index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row of the array under row p of the block of point t: t·512 + p. -/
def lin1_row (t : Fin cfg1.N) (p : Fin 512) : Fin 8192 :=
  ⟨t.val * 512 + p.val, by have := t.isLt; have hN : cfg1.N = 16 := N_1; have := p.isLt; omega⟩

/-- The activations' block at point t, entry (p, k), is the activations at (t·512 + p, k). -/
theorem lin1_rows_block (c : Dev nD) (t : Fin cfg1.N) (p : Fin 512) (k : Fin 1024) :
    (iblk1 V c 0 t : Vec Ideal S512x1024 .f32) (ix2 p k)
      = (V c main_v1 : S8192x1024.Idx → EReal) (ix2 (lin1_row t p) k) := by
  obtain ⟨e0, e1, -, -, -, -⟩ := lin1_index_maps t
  show V c main_v1 (((cfg1.win 0).blk t).view.emb (ix2 p k)) = V c main_v1 _
  refine congrArg (V c main_v1) (funext fun a => Fin.ext ?_)
  match a with
  | ⟨0, _⟩ => show win1_0.index t (0 : Fin 2) * 512 + 1 * p.val = t.val * 512 + p.val; omega
  | ⟨1, _⟩ => show win1_0.index t (1 : Fin 2) * 1024 + 1 * k.val = k.val; omega

/-- The weight's block at every point is the whole weight matrix. -/
theorem lin1_weight_block (c : Dev nD) (t : Fin cfg1.N) :
    (iblk1 V c 1 t : Vec Ideal S1024x1024 .f32) = (V c main_v7 : S1024x1024.Idx → EReal) := by
  obtain ⟨-, -, e2, e3, -, -⟩ := lin1_index_maps t
  funext j
  show V c main_v7 (((cfg1.win 1).blk t).view.emb j) = V c main_v7 j
  refine congrArg (V c main_v7) (funext fun a => Fin.ext ?_)
  match a with
  | ⟨0, _⟩ => show win1_1.index t (0 : Fin 2) * 1024 + 1 * (j 0).val = (j 0).val; omega
  | ⟨1, _⟩ => show win1_1.index t (1 : Fin 2) * 1024 + 1 * (j 1).val = (j 1).val; omega

/-- What point t writes back is block t of the product: the body's one store covers its buffer, its loads read
    the two blocks, and entry j of the stored product is the product of the arrays at the index under j. -/
theorem lin1_flushed (c : Dev nD) (t : Fin cfg1.N) :
    (dat1 (F := Ideal) V c).flushed 2 t
      = ((cfg1.win 2).blk t).view.read (Elt Ideal) (Cert.Spec.linear (V c main_v1) (V c main_v7)) := by
  show (cfg1.win 2).cut (grid1.coords t) ((dat1 V c).after 2 t) = _
  rw [after1_2]
  unfold out1_2
  rw [View.canon_unit_zero lin_zero_offsets]
  simp only [View.ld_unit_zero (S := S512x1024) lin_zero_offsets, View.ld_unit_zero (S := S1024x1024) lin_zero_offsets]
  obtain ⟨-, -, -, -, e4, e5⟩ := lin1_index_maps t
  funext j
  refine (lin1_block_entry (V c main_v1) (V c main_v7) (iblk1 V c 0 t) (iblk1 V c 1 t) (lin1_row t)
    (lin1_rows_block V c t) (lin1_weight_block V c t) j).trans ?_
  show Cert.Spec.linearAt (V c main_v1) (V c main_v7) _ _
    = Cert.Spec.linearAt (V c main_v1) (V c main_v7)
        ((((cfg1.win 2).blk t).view.emb j) 0) ((((cfg1.win 2).blk t).view.emb j) 1)
  refine congrArg₂ (Cert.Spec.linearAt (V c main_v1) (V c main_v7)) (Fin.ext ?_) (Fin.ext ?_)
  · show t.val * 512 + (j 0).val = win1_2.index t (0 : Fin 2) * 512 + 1 * (j 0).val; omega
  · show (j 1).val = win1_2.index t (1 : Fin 2) * 1024 + 1 * (j 1).val; omega

/-- An index of the output is in point t's block iff each coordinate is in the block's range on its axis. -/
theorem lin1_mem_block (t : Fin cfg1.N) (i : S8192x1024.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v8).slice (win1_2.rect t)).set ↔ _
  rw [View.set_slice_whole, Rect.mem_set_unit]
  exact Iff.rfl

/-- Every index of the output is in the block of a point that writes back: row r is in the block of point r / 512. -/
theorem lin1_cover (i : S8192x1024.Idx) :
    ∃ t : Fin cfg1.N, (cfg1.win 2).flush t = true ∧ i ∈ ((cfg1.win 2).blk t).view.set := by
  have hi0 : (i 0).val < 8192 := (i 0).isLt
  have hi1 : (i 1).val < 1024 := (i 1).isLt
  have hN : cfg1.N = 16 := N_1
  obtain ⟨t, ht⟩ : ∃ t : Fin cfg1.N, t.val = (i 0).val / 512 := ⟨⟨(i 0).val / 512, by rw [hN]; omega⟩, rfl⟩
  obtain ⟨-, -, -, -, e4, e5⟩ := lin1_index_maps t
  refine ⟨t, flush1_2 t, ?_⟩
  rw [lin1_mem_block]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 1024 ≤ (i 1).val ∧ (i 1).val < win1_2.index t (1 : Fin 2) * 1024 + 1024
    omega

/-- The output array of the region after its run is the product of the activations and the weight as the region
    found them. -/
theorem lin1_final (c : Dev nD) :
    (dat1 (F := Ideal) V c).arrAt 2 cfg1.N = Cert.Spec.linear (V c main_v1) (V c main_v7) :=
  (dat1 V c).arrAt_eq_of_cover 2 (Cert.Spec.linear (V c main_v1) (V c main_v7)) (fun t _ => lin1_flushed V c t) lin1_cover

end Cert.KernelIdeal.Gen

end
-- ==== Proof.Lin2.lean ====
/-
  The third linear region of the kernel: its output array after the run is the product of the specification.

  The region runs on a grid of 16 points. Point t stages rows t·512 … t·512 + 511 of the activations
  [8192, 1024] and the whole weight matrix [1024, 1024], multiplies them, and writes the result back to rows
  t·512 … t·512 + 511 of the output array [8192, 1024]. So

    * row p of the activations' block at point t is row t·512 + p of the activations, the weight block is the
      weight matrix itself, and entry (p, q) of what point t writes back is ∑ k, X (t·512 + p, k) · W (k, q):
      block t of the product X · W;
    * row r of the output is covered by the block of point r / 512, so the sixteen blocks cover the array,

  and an array every index of which some point's block covers, each block written with the block of one function,
  ends holding that function.
-/
import proofs.«118998_j18983755448471_1_alg».proof.Proof.Gen.KernelIdeal.Frame
import proofs.«118998_j18983755448471_1_alg».proof.Proof.LinPay
import Idealize.ShloMosaic.Lib.Pipeline.Value

noncomputable section

namespace Cert.KernelIdeal.Gen

open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three index maps over the grid: at point t the activations' and the output's block index is (t, 0), the
    weight's is (0, 0). -/
theorem lin2_index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row of the array under row p of the block of point t: t·512 + p. -/
def lin2_row (t : Fin cfg2.N) (p : Fin 512) : Fin 8192 :=
  ⟨t.val * 512 + p.val, by have := t.isLt; have hN : cfg2.N = 16 := N_2; have := p.isLt; omega⟩

/-- The activations' block at point t, entry (p, k), is the activations at (t·512 + p, k). -/
theorem lin2_rows_block (c : Dev nD) (t : Fin cfg2.N) (p : Fin 512) (k : Fin 1024) :
    (iblk2 V c 0 t : Vec Ideal S512x1024 .f32) (ix2 p k)
      = (V c main_v2 : S8192x1024.Idx → EReal) (ix2 (lin2_row t p) k) := by
  obtain ⟨e0, e1, -, -, -, -⟩ := lin2_index_maps t
  show V c main_v2 (((cfg2.win 0).blk t).view.emb (ix2 p k)) = V c main_v2 _
  refine congrArg (V c main_v2) (funext fun a => Fin.ext ?_)
  match a with
  | ⟨0, _⟩ => show win2_0.index t (0 : Fin 2) * 512 + 1 * p.val = t.val * 512 + p.val; omega
  | ⟨1, _⟩ => show win2_0.index t (1 : Fin 2) * 1024 + 1 * k.val = k.val; omega

/-- The weight's block at every point is the whole weight matrix. -/
theorem lin2_weight_block (c : Dev nD) (t : Fin cfg2.N) :
    (iblk2 V c 1 t : Vec Ideal S1024x1024 .f32) = (V c main_v11 : S1024x1024.Idx → EReal) := by
  obtain ⟨-, -, e2, e3, -, -⟩ := lin2_index_maps t
  funext j
  show V c main_v11 (((cfg2.win 1).blk t).view.emb j) = V c main_v11 j
  refine congrArg (V c main_v11) (funext fun a => Fin.ext ?_)
  match a with
  | ⟨0, _⟩ => show win2_1.index t (0 : Fin 2) * 1024 + 1 * (j 0).val = (j 0).val; omega
  | ⟨1, _⟩ => show win2_1.index t (1 : Fin 2) * 1024 + 1 * (j 1).val = (j 1).val; omega

/-- What point t writes back is block t of the product: the body's one store covers its buffer, its loads read
    the two blocks, and entry j of the stored product is the product of the arrays at the index under j. -/
theorem lin2_flushed (c : Dev nD) (t : Fin cfg2.N) :
    (dat2 (F := Ideal) V c).flushed 2 t
      = ((cfg2.win 2).blk t).view.read (Elt Ideal) (Cert.Spec.linear (V c main_v2) (V c main_v11)) := by
  show (cfg2.win 2).cut (grid2.coords t) ((dat2 V c).after 2 t) = _
  rw [after2_2]
  unfold out2_2
  rw [View.canon_unit_zero lin_zero_offsets]
  simp only [View.ld_unit_zero (S := S512x1024) lin_zero_offsets, View.ld_unit_zero (S := S1024x1024) lin_zero_offsets]
  obtain ⟨-, -, -, -, e4, e5⟩ := lin2_index_maps t
  funext j
  refine (lin2_block_entry (V c main_v2) (V c main_v11) (iblk2 V c 0 t) (iblk2 V c 1 t) (lin2_row t)
    (lin2_rows_block V c t) (lin2_weight_block V c t) j).trans ?_
  show Cert.Spec.linearAt (V c main_v2) (V c main_v11) _ _
    = Cert.Spec.linearAt (V c main_v2) (V c main_v11)
        ((((cfg2.win 2).blk t).view.emb j) 0) ((((cfg2.win 2).blk t).view.emb j) 1)
  refine congrArg₂ (Cert.Spec.linearAt (V c main_v2) (V c main_v11)) (Fin.ext ?_) (Fin.ext ?_)
  · show t.val * 512 + (j 0).val = win2_2.index t (0 : Fin 2) * 512 + 1 * (j 0).val; omega
  · show (j 1).val = win2_2.index t (1 : Fin 2) * 1024 + 1 * (j 1).val; omega

/-- An index of the output is in point t's block iff each coordinate is in the block's range on its axis. -/
theorem lin2_mem_block (t : Fin cfg2.N) (i : S8192x1024.Idx) :
    i ∈ ((cfg2.win 2).blk t).view.set ↔ ∀ a : Fin 2, win2_2.index t a * S512x1024.size a ≤ (i a).val
      ∧ (i a).val < win2_2.index t a * S512x1024.size a + S512x1024.size a := by
  show i ∈ ((View.whole main_v12).slice (win2_2.rect t)).set ↔ _
  rw [View.set_slice_whole, Rect.mem_set_unit]
  exact Iff.rfl

/-- Every index of the output is in the block of a point that writes back: row r is in the block of point r / 512. -/
theorem lin2_cover (i : S8192x1024.Idx) :
    ∃ t : Fin cfg2.N, (cfg2.win 2).flush t = true ∧ i ∈ ((cfg2.win 2).blk t).view.set := by
  have hi0 : (i 0).val < 8192 := (i 0).isLt
  have hi1 : (i 1).val < 1024 := (i 1).isLt
  have hN : cfg2.N = 16 := N_2
  obtain ⟨t, ht⟩ : ∃ t : Fin cfg2.N, t.val = (i 0).val / 512 := ⟨⟨(i 0).val / 512, by rw [hN]; omega⟩, rfl⟩
  obtain ⟨-, -, -, -, e4, e5⟩ := lin2_index_maps t
  refine ⟨t, flush2_2 t, ?_⟩
  rw [lin2_mem_block]
  intro a
  match a with
  | ⟨0, _⟩ =>
    show win2_2.index t (0 : Fin 2) * 512 ≤ (i 0).val ∧ (i 0).val < win2_2.index t (0 : Fin 2) * 512 + 512
    omega
  | ⟨1, _⟩ =>
    show win2_2.index t (1 : Fin 2) * 1024 ≤ (i 1).val ∧ (i 1).val < win2_2.index t (1 : Fin 2) * 1024 + 1024
    omega

/-- The output array of the region after its run is the product of the activations and the weight as the region
    found them. -/
theorem lin2_final (c : Dev nD) :
    (dat2 (F := Ideal) V c).arrAt 2 cfg2.N = Cert.Spec.linear (V c main_v2) (V c main_v11) :=
  (dat2 V c).arrAt_eq_of_cover 2 (Cert.Spec.linear (V c main_v2) (V c main_v11)) (fun t _ => lin2_flushed V c t) lin2_cover

end Cert.KernelIdeal.Gen

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.LibBlockRows.lean ====
/-
  Three readings of array operations at one entry, general in the extents, that the attention block needs beside
  the column and row-sum readings: a block with two leading unit axes read as a matrix, a matrix given two leading
  unit axes, and the maximum of a matrix's rows on the extended reals.

  A block [1, 1, a, b] holds one matrix. In row-major order the position of (0, 0, i, j) is
  ((0 · 1 + 0) · a + i) · b + j = i · b + j, the position of (i, j) in [a, b], so dropping or adding the two unit
  axes moves no entry. The maximum of a row is the fold of max over the row's entries, from the accumulator's value.
-/
import Idealize.ShloMosaic.PureOps.Ideal.Laws
import Idealize.ShloMosaic.Lib.ValueIdx
import Idealize.ShloMosaic.Lib.Pipeline.Value

noncomputable section

open scoped BigOperators

namespace Cert.LibBlockRows

open Idealize.ShloMosaic Idealize.ShloMosaic.ValueIdx

section Layout
variable {α : Type}

/-- A block [1, 1, a, b] cast to the matrix [a, b] reads, at (i, j), the block at (0, 0, i, j): both have the
    row-major position i · b + j. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to a block [1, 1, a, b] reads, at (u, u', i, j), the matrix at (i, j): the two unit
    coordinates are 0, and the row-major positions agree as above. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

end Layout

/-- A maximum reduction of a matrix [a, b] along its second axis is at n the fold of max, from the accumulator's
    value, over the entries (n, m), m < b. The library reads the reduction as the fold over the reduced axis of
    the source at the result index with the reduced coordinate put back in; for a matrix reduced along its columns
    that index is (n, m), coordinate by coordinate. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (n : Fin a) :
    multiReduction (F := Ideal) .maximumf [1] ⟨1, ![a]⟩ src acc h hφ hacc (ix1 n)
      = (Finset.univ : Finset (Fin b)).fold max (Ideal.ofBits .f32 acc) (fun m => src (ix2 n m)) :=
  (Ideal.multiReduction_maximumf_single src acc h hφ hacc (ix1 n)).trans
    (congrArg (fun f : Fin b → EReal => (Finset.univ : Finset (Fin b)).fold max (Ideal.ofBits .f32 acc) f)
      (funext fun m => congrArg src (funext fun c => Fin.ext (by
        match c with
        | ⟨0, _⟩ => rfl
        | ⟨1, _⟩ => rfl))))

end Cert.LibBlockRows

end
-- ==== Proof.AttnPay.lean ====
/-
  The attention body read at one entry of its output block, on the extended reals.

  At one grid point the body holds a query block q [1, 1, 256, 64], the head's keys k and values v
  [1, 1, 2048, 64] and a mask block [1, 256, 2048]. It forms, for query row r and key j, the score
  s(r, j) = −10⁹ where mask (0, r, j) = 1 and (∑ₑ q(0,0,r,e) · k(0,0,j,e)) · 1/8 otherwise; subtracts from each
  row its maximum, exponentiates, divides each row by its sum; and multiplies the resulting probabilities with
  the values. So entry (0, 0, r, d) of what it stores is

      ∑ⱼ softmax (s(r, ·)) j · v(0, 0, j, d),

  the specification's attention at one head with the block's coordinates. The body is cut below into its four
  stages — scores, shifted exponentials, normalisation, product with the values — each a function of the stage
  before; the printed body is their composition by unfolding, and each stage is read at an entry separately.
  Changes of float format are the identity on the extended reals, a product into the zero accumulator is the
  plain sum over the contracted axis, and a row quantity made a column and repeated along the row is that row's
  quantity at every entry of the row.
-/
import proofs.«118998_j18983755448471_1_alg».proof.Proof.Gen.KernelIdeal.Skeleton
import proofs.«118998_j18983755448471_1_alg».proof.Proof.Spec
import proofs.«118998_j18983755448471_1_alg».proof.Proof.LibPlainDot
import proofs.«118998_j18983755448471_1_alg».proof.Proof.LibColumn
import proofs.«118998_j18983755448471_1_alg».proof.Proof.LibBlockRows
import Idealize.ShloMosaic.Lib.ValueLayout

noncomputable section

open scoped BigOperators

namespace Cert.KernelIdeal.Gen

open Idealize.ShloMosaic Idealize.ShloMosaic.ValueIdx

/-! ## The stages of the body -/

/-- The mask block as a matrix [256, 2048]. -/
def attnMask (mask : Vec Ideal S1x256x2048 .i32) : IVec S256x2048 32 :=
  shapeCast S256x2048 mask shapeCasts_S1x256x2048_S256x2048

/-- q · kᵀ: the query block as a matrix [256, 64] times the transposed key matrix [64, 2048], into zero. -/
def attnQK (q : Vec Ideal S1x1x256x64 .f32) (k : Vec Ideal S1x1x2048x64 .f32) : FVec Ideal S256x2048 .f32 :=
  matmul dot_S256x64_S64x2048_S256x2048_1_0_0_1_n_n none
    (truncf .bf16 (shapeCast S256x64 q shapeCasts_S1x1x256x64_S256x64) bitsLt_bf16_f32)
    (transpose S64x2048 [1, 0] (truncf .bf16 (shapeCast S2048x64 k shapeCasts_S1x1x2048x64_S2048x64) bitsLt_bf16_f32)
      transposes_S2048x64_p1_0_S64x2048)
    (constant (F := Ideal) S256x2048 .f32 0x00000000#32)

/-- The scores: q · kᵀ scaled by 1/8, replaced by −10⁹ where the mask is 1. -/
def attnScores (q : Vec Ideal S1x1x256x64 .f32) (k : Vec Ideal S1x1x2048x64 .f32) (mask : Vec Ideal S1x256x2048 .i32) :
    FVec Ideal S256x2048 .f32 :=
  select (cmpi .eq (attnMask mask) (broadcast S256x2048 1#32))
    (broadcast S256x2048 (Scalar.ofBits (F := Ideal) .f32 0xCE6E6B28#32))
    (mulf (attnQK q k) (broadcast S256x2048 (Scalar.ofBits (F := Ideal) .f32 0x3E000000#32)))

/-- Each row's maximum, made a column and repeated along the row. -/
def attnRowMax (s : FVec Ideal S256x2048 .f32) : FVec Ideal S256x2048 .f32 :=
  broadcastTo S256x2048
    (shapeCast S256x1 (multiReduction (F := Ideal) .maximumf [1] S256 s 0xFF800000#32 reduces_S256x2048_S256 (.inl rfl) rfl)
      shapeCasts_S256_S256x1)
    broadcasts_S256x1_S256x2048

/-- exp (s − row maximum). -/
def attnExp (s : FVec Ideal S256x2048 .f32) : FVec Ideal S256x2048 .f32 :=
  exp (subf s (attnRowMax s))

/-- Each row's sum, made a column and repeated along the row. -/
def attnRowSum (e : FVec Ideal S256x2048 .f32) : FVec Ideal S256x2048 .f32 :=
  broadcastTo S256x2048
    (shapeCast S256x1 (multiReduction (F := Ideal) .add [1] S256 e 0x00000000#32 reduces_S256x2048_S256 (.inl rfl) rfl)
      shapeCasts_S256_S256x1)
    broadcasts_S256x1_S256x2048

/-- Each row divided by its sum. -/
def attnNorm (e : FVec Ideal S256x2048 .f32) : FVec Ideal S256x2048 .f32 :=
  divf e (attnRowSum e)

/-- The probabilities [256, 2048] times the value matrix [2048, 64], into zero. -/
def attnPV (p : FVec Ideal S256x2048 .f32) (v : Vec Ideal S1x1x2048x64 .f32) : FVec Ideal S256x64 .f32 :=
  matmul dot_S256x2048_S2048x64_S256x64_1_0_0_1_n_n none
    (truncf .bf16 p bitsLt_bf16_f32)
    (truncf .bf16 (shapeCast S2048x64 v shapeCasts_S1x1x2048x64_S2048x64) bitsLt_bf16_f32)
    (constant (F := Ideal) S256x64 .f32 0x00000000#32)

/-- The printed body is the composition of the stages, cast back to a block [1, 1, 256, 64]: both sides unfold
    to the same sequence of operations. -/
theorem attn_pay_stages (q : Vec Ideal S1x1x256x64 .f32) (k v : Vec Ideal S1x1x2048x64 .f32) (mask : Vec Ideal S1x256x2048 .i32) :
    k3_pay1 (F := Ideal) (k3_pay2 (F := Ideal) q k mask v)
      = shapeCast S1x1x256x64 (attnPV (attnNorm (attnExp (attnScores q k mask))) v) shapeCasts_S256x64_S1x1x256x64 := rfl

/-! ## Each stage at an entry -/

/-- The mask matrix at (r, j) is the mask block at (0, r, j). -/
theorem attnMask_apply (mask : Vec Ideal S1x256x2048 .i32) (r : Fin 256) (j : Fin 2048) :
    attnMask mask (ix2 r j) = mask (ix3 (0 : Fin 1) r j) :=
  shapeCast_1ab_ab_apply mask _ r j

/-- q · kᵀ at (r, j) is the sum over the 64 head features e of q(0,0,r,e) · k(0,0,j,e): the product into zero is
    the sum over e of the query matrix at (r, e) times the transposed key matrix at (e, j), which is the key
    matrix at (j, e). -/
theorem attnQK_apply (q : Vec Ideal S1x1x256x64 .f32) (k : Vec Ideal S1x1x2048x64 .f32) (r : Fin 256) (j : Fin 2048) :
    attnQK q k (ix2 r j) = ∑ e : Fin 64, q (ix4 (0 : Fin 1) (0 : Fin 1) r e) * k (ix4 (0 : Fin 1) (0 : Fin 1) j e) :=
  (Cert.LibPlainDot.matmul_zero_apply (M := 256) (K := 64) (N := 2048) none _ _ r j).trans
    (Finset.sum_congr rfl fun e _ => congrArg₂ (fun x y : EReal => x * y)
      (Cert.LibBlockRows.shapeCast_11ab_ab_apply q _ r e)
      ((transpose_ix2_apply _ _ e j).trans (Cert.LibBlockRows.shapeCast_11ab_ab_apply k _ j e)))

/-- The score at (r, j): −10⁹ where the mask is 1, else the scaled product. -/
theorem attnScores_apply (q : Vec Ideal S1x1x256x64 .f32) (k : Vec Ideal S1x1x2048x64 .f32) (mask : Vec Ideal S1x256x2048 .i32)
    (r : Fin 256) (j : Fin 2048) :
    attnScores q k mask (ix2 r j)
      = Scalar.select (IntOp.cmpi .eq (mask (ix3 (0 : Fin 1) r j)) 1#32) (Ideal.ofBits .f32 0xCE6E6B28#32)
          ((∑ e : Fin 64, q (ix4 (0 : Fin 1) (0 : Fin 1) r e) * k (ix4 (0 : Fin 1) (0 : Fin 1) j e)) * Ideal.ofBits .f32 0x3E000000#32) := by
  show Scalar.select (IntOp.cmpi .eq (attnMask mask (ix2 r j)) 1#32) (Ideal.ofBits .f32 0xCE6E6B28#32)
      (attnQK q k (ix2 r j) * Ideal.ofBits .f32 0x3E000000#32) = _
  rw [attnMask_apply, attnQK_apply]

/-- The repeated row maximum at (r, j) is the maximum of row r, the fold of max from −∞ over its 2048 entries. -/
theorem attnRowMax_apply (s : FVec Ideal S256x2048 .f32) (r : Fin 256) (j : Fin 2048) :
    attnRowMax s (ix2 r j) = Cert.Spec.rowMax (fun m => s (ix2 r m)) :=
  (Cert.LibColumn.column_apply _ _ _ r j).trans (Cert.LibBlockRows.rowMax_apply s 0xFF800000#32 _ _ _ r)

/-- The shifted exponential at (r, j). -/
theorem attnExp_apply (s : FVec Ideal S256x2048 .f32) (r : Fin 256) (j : Fin 2048) :
    attnExp s (ix2 r j) = Ideal.exp (s (ix2 r j) - Cert.Spec.rowMax (fun m => s (ix2 r m))) := by
  show Ideal.exp (s (ix2 r j) - attnRowMax s (ix2 r j)) = _
  rw [attnRowMax_apply]

/-- The repeated row sum at (r, j) is the sum of row r. -/
theorem attnRowSum_apply (e : FVec Ideal S256x2048 .f32) (r : Fin 256) (j : Fin 2048) :
    attnRowSum e (ix2 r j) = ∑ m : Fin 2048, e (ix2 r m) :=
  (Cert.LibColumn.column_apply _ _ _ r j).trans (Cert.LibColumn.rowSum_apply e _ _ _ r)

/-- The normalised row at (r, j). -/
theorem attnNorm_apply (e : FVec Ideal S256x2048 .f32) (r : Fin 256) (j : Fin 2048) :
    attnNorm e (ix2 r j) = Ideal.div (e (ix2 r j)) (∑ m : Fin 2048, e (ix2 r m)) := by
  show Ideal.div (e (ix2 r j)) (attnRowSum e (ix2 r j)) = _
  rw [attnRowSum_apply]

/-- Shifting, exponentiating and normalising a score matrix gives, at (r, j), the softmax of row r at j. -/
theorem attnSoftmax_apply (s : FVec Ideal S256x2048 .f32) (r : Fin 256) (j : Fin 2048) :
    attnNorm (attnExp s) (ix2 r j) = Cert.Spec.softmaxRow (fun m => s (ix2 r m)) j := by
  rw [attnNorm_apply, attnExp_apply]
  unfold Cert.Spec.softmaxRow
  exact congrArg (Ideal.div _) (Finset.sum_congr rfl fun m _ => attnExp_apply s r m)

/-- The product with the values at (r, d): the sum over the 2048 keys j of p(r, j) · v(0,0,j,d). -/
theorem attnPV_apply (p : FVec Ideal S256x2048 .f32) (v : Vec Ideal S1x1x2048x64 .f32) (r : Fin 256) (d : Fin 64) :
    attnPV p v (ix2 r d) = ∑ j : Fin 2048, p (ix2 r j) * v (ix4 (0 : Fin 1) (0 : Fin 1) j d) :=
  (Cert.LibPlainDot.matmul_zero_apply (M := 256) (K := 2048) (N := 64) none _ _ r d).trans
    (Finset.sum_congr rfl fun j _ => congrArg (fun y : EReal => p (ix2 r j) * y)
      (Cert.LibBlockRows.shapeCast_11ab_ab_apply v _ j d))

/-! ## The body at an entry -/

/-- Entry (0, 0, r, d) of what the body stores: the softmax of query row r's masked, scaled scores against the
    2048 keys, times the values' feature d. -/
theorem attn_pay_apply (q : Vec Ideal S1x1x256x64 .f32) (k v : Vec Ideal S1x1x2048x64 .f32) (mask : Vec Ideal S1x256x2048 .i32)
    (r : Fin 256) (d : Fin 64) :
    k3_pay1 (F := Ideal) (k3_pay2 (F := Ideal) q k mask v) (ix4 (0 : Fin 1) (0 : Fin 1) r d)
      = ∑ j : Fin 2048,
          Cert.Spec.softmaxRow (fun j' : Fin 2048 =>
            Scalar.select (IntOp.cmpi .eq (mask (ix3 (0 : Fin 1) r j')) 1#32) (Ideal.ofBits .f32 0xCE6E6B28#32)
              ((∑ e : Fin 64, q (ix4 (0 : Fin 1) (0 : Fin 1) r e) * k (ix4 (0 : Fin 1) (0 : Fin 1) j' e)) * Ideal.ofBits .f32 0x3E000000#32)) j
            * v (ix4 (0 : Fin 1) (0 : Fin 1) j d) := by
  refine (congrFun (attn_pay_stages q k v mask) _).trans ?_
  refine (Cert.LibBlockRows.shapeCast_ab_11ab_apply _ _ 0 0 r d).trans ?_
  refine (attnPV_apply _ v r d).trans (Finset.sum_congr rfl fun j _ => congrArg (fun x : EReal => x * v (ix4 (0 : Fin 1) (0 : Fin 1) j d)) ?_)
  refine (attnSoftmax_apply _ r j).trans ?_
  exact congrArg (fun s : Fin 2048 → EReal => Cert.Spec.softmaxRow s j) (funext fun j' => attnScores_apply q k mask r j')

end Cert.KernelIdeal.Gen

end
-- ==== Proof.AttnBlocksEntry.lean ====
/-
  One entry of what the attention body stores, in the coordinates of the whole arrays.

  At a grid point the body works on a query block q [1, 1, 256, 64], the keys k and values v [1, 1, 2048, 64]
  of one head of one batch, and a mask block [1, 256, 2048]. Suppose the blocks are pieces of whole arrays
  Q, K, W [4, 16, 2048, 64] and M [4, 2048, 2048]: for a batch b, a head h and a map `row` from the 256 rows of the
  query block to the 2048 query positions,

      q (0, 0, r, e) = Q (b, h, row r, e),   k (0, 0, j, e) = K (b, h, j, e),
      v (0, 0, j, e) = W (b, h, j, e),       mask (0, r, j) = M (b, row r, j).

  Entry (0, 0, r, d) of the stored block is ∑ⱼ softmax (s(r, ·)) j · v (0, 0, j, d) with s(r, j) the masked and
  scaled score of the block's row r against key j. Under the four equations the score s(r, j) is the
  specification's score of query position row r against key j in head h of batch b, term by term, so the entry is
  the specification's attention at (b, h, row r, d). Nothing is rearranged: both sides are the same sums over
  the same index sets with equal summands.
-/
import proofs.«118998_j18983755448471_1_alg».proof.Proof.AttnPay

noncomputable section

namespace Cert.KernelIdeal.Gen

open Idealize.ShloMosaic Idealize.ShloMosaic.TcCoe Idealize.SL.Sem Idealize.ShloMosaic.ValueIdx
open Idealize.ShloMosaic.Pipeline (Dat Cfg Window)

/-- An entry of the stored block is the specification's attention at the array coordinates the blocks sit at. -/
theorem attn_block_entry (Q K W : Cert.Spec.SH.Idx → EReal) (M : Cert.Spec.SM.Idx → BitVec 32)
    (q : Vec Ideal S1x1x256x64 .f32) (k v : Vec Ideal S1x1x2048x64 .f32) (mask : Vec Ideal S1x256x2048 .i32)
    (b : Fin 4) (h : Fin 16) (row : Fin 256 → Fin 2048)
    (hq : ∀ (r : Fin 256) (e : Fin 64), q (ix4 (0 : Fin 1) (0 : Fin 1) r e) = Q (ix4 b h (row r) e))
    (hk : ∀ (j : Fin 2048) (e : Fin 64), k (ix4 (0 : Fin 1) (0 : Fin 1) j e) = K (ix4 b h j e))
    (hv : ∀ (j : Fin 2048) (e : Fin 64), v (ix4 (0 : Fin 1) (0 : Fin 1) j e) = W (ix4 b h j e))
    (hm : ∀ (r : Fin 256) (j : Fin 2048), mask (ix3 (0 : Fin 1) r j) = M (ix3 b (row r) j))
    (y : S1x1x256x64.Idx) :
    k3_pay1 (F := Ideal) (k3_pay2 (F := Ideal) q k mask v) y = Cert.Spec.attnAt Q K W M b h (row (y 2)) (y 3) := by
  -- the block's index is (0, 0, r, d): its two leading axes have one coordinate each
  obtain ⟨a0, a1, r, d, rfl⟩ : ∃ (a0 a1 : Fin 1) (r : Fin 256) (d : Fin 64), y = ix4 a0 a1 r d :=
    ⟨y 0, y 1, y 2, y 3, eq_ix4 y⟩
  obtain rfl : a0 = 0 := Subsingleton.elim _ _
  obtain rfl : a1 = 0 := Subsingleton.elim _ _
  show k3_pay1 (F := Ideal) (k3_pay2 (F := Ideal) q k mask v) (ix4 (0 : Fin 1) (0 : Fin 1) r d)
    = Cert.Spec.attnAt Q K W M b h (row r) d
  refine (attn_pay_apply q k v mask r d).trans ?_
  unfold Cert.Spec.attnAt
  refine Finset.sum_congr rfl fun j _ => ?_
  -- the block's row of scores is the specification's row of scores at query position `row r`
  have hs : (fun j' : Fin 2048 =>
      Scalar.select (IntOp.cmpi .eq (mask (ix3 (0 : Fin 1) r j')) 1#32) (Ideal.ofBits .f32 0xCE6E6B28#32)
        ((∑ e : Fin 64, q (ix4 (0 : Fin 1) (0 : Fin 1) r e) * k (ix4 (0 : Fin 1) (0 : Fin 1) j' e))
          * Ideal.ofBits .f32 0x3E000000#32))
      = Cert.Spec.scoreAt Q K M b h (row r) := by
    funext j'
    unfold Cert.Spec.scoreAt
    rw [hm r j']
    refine congrArg (fun s : EReal => Scalar.select (IntOp.cmpi .eq (M (ix3 b (row r) j')) 1#32)
      (Ideal.ofBits .f32 0xCE6E6B28#32) (s * Ideal.ofBits .f32 0x3E000000#32)) ?_
    exact Finset.sum_congr rfl fun e _ => by rw [hq r e, hk j' e]
  rw [hs, hv j d]

end Cert.KernelIdeal.Gen

end
-- ==== Proof.AttnBlocksIdx.lean ====
/-
  The grid of the attention region and where its blocks sit.

  The region runs on a grid [4, 8, 16] of 512 points: a batch, a tile of 256 query positions, a head, the head
  running fastest. So point t has batch t / 128, query tile t / 16 mod 8 and head t mod 16. The five windows'
  block indices at point t, read off the printed index maps and decided once over the 512 points:

    * the query block and the output block, [1, 1, 256, 64] of [4, 16, 2048, 64], sit at (batch, head, tile, 0);
    * the key block and the value block, [1, 1, 2048, 64], sit at (batch, head, 0, 0): all 2048 keys of the head;
    * the mask block, [1, 256, 2048] of [4, 2048, 2048], sits at (batch, tile, 0): the tile's queries against all keys.

  A block's element sits in its array, on each axis, at block index × block size + its own coordinate; so row r of
  the query tile of point t is query position (t / 16 mod 8) · 256 + r.
-/
import proofs.«118998_j18983755448471_1_alg».proof.Proof.Gen.KernelIdeal.Frame
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat Cfg Window)

theorem attn_zero_offsets4 : (![0, 0, 0, 0] : Fin 4 → Nat) = fun _ => 0 := funext fun a => by fin_cases a <;> rfl

theorem attn_zero_offsets3 : (![0, 0, 0] : Fin 3 → Nat) = fun _ => 0 := funext fun a => by fin_cases a <;> rfl

/-- The output block at point t sits at (batch, head, query tile, 0). -/
theorem attn_index_out : ∀ t : Fin cfg3.N,
    win3_4.index t (0 : Fin 4) = t.val / 128 ∧ win3_4.index t (1 : Fin 4) = t.val % 16
    ∧ win3_4.index t (2 : Fin 4) = t.val / 16 % 8 ∧ win3_4.index t (3 : Fin 4) = 0 :=
  (by decide +kernel : ∀ t : Fin grid3.N, _)

/-- The query block moves with the output block. -/
theorem attn_index_query : ∀ t : Fin cfg3.N,
    win3_0.index t (0 : Fin 4) = t.val / 128 ∧ win3_0.index t (1 : Fin 4) = t.val % 16
    ∧ win3_0.index t (2 : Fin 4) = t.val / 16 % 8 ∧ win3_0.index t (3 : Fin 4) = 0 :=
  (by decide +kernel : ∀ t : Fin grid3.N, _)

/-- The key block is all 2048 keys of the point's batch and head. -/
theorem attn_index_key : ∀ t : Fin cfg3.N,
    win3_1.index t (0 : Fin 4) = t.val / 128 ∧ win3_1.index t (1 : Fin 4) = t.val % 16
    ∧ win3_1.index t (2 : Fin 4) = 0 ∧ win3_1.index t (3 : Fin 4) = 0 :=
  (by decide +kernel : ∀ t : Fin grid3.N, _)

/-- So is the value block. -/
theorem attn_index_value : ∀ t : Fin cfg3.N,
    win3_2.index t (0 : Fin 4) = t.val / 128 ∧ win3_2.index t (1 : Fin 4) = t.val % 16
    ∧ win3_2.index t (2 : Fin 4) = 0 ∧ win3_2.index t (3 : Fin 4) = 0 :=
  (by decide +kernel : ∀ t : Fin grid3.N, _)

/-- The mask block is the point's batch and query tile against all keys. -/
theorem attn_index_mask : ∀ t : Fin cfg3.N,
    win3_3.index t (0 : Fin 3) = t.val / 128 ∧ win3_3.index t (1 : Fin 3) = t.val / 16 % 8
    ∧ win3_3.index t (2 : Fin 3) = 0 :=
  (by decide +kernel : ∀ t : Fin grid3.N, _)

/-- The batch of grid point t. -/
def attn_batch (t : Fin cfg3.N) : Fin 4 :=
  ⟨t.val / 128, by have := t.isLt; have hN : cfg3.N = 512 := N_3; omega⟩

/-- The head of grid point t. -/
def attn_head (t : Fin cfg3.N) : Fin 16 := ⟨t.val % 16, by omega⟩

/-- The query position under row r of the query tile of grid point t. -/
def attn_row (t : Fin cfg3.N) (r : Fin 256) : Fin 2048 :=
  ⟨t.val / 16 % 8 * 256 + r.val, by have := r.isLt; omega⟩

end Cert.KernelIdeal.Gen

end
-- ==== Proof.AttnBlocksRead.lean ====
/-
  The four input blocks of the attention region at a grid point, as pieces of their arrays.

  Each block is its array read through the block's rectangle, and a rectangle's element sits on each axis at
  block index × block size + 1 × its own coordinate. With the block indices of the point (its batch b, head h
  and query tile) this says, for the arrays as the region finds them:

      query block  (0, 0, r, e) = Q (b, h, tile · 256 + r, e)       key block   (0, 0, j, e) = K (b, h, j, e)
      mask block   (0, r, j)    = M (b, tile · 256 + r, j)          value block (0, 0, j, e) = W (b, h, j, e)

  — the key axis is whole in the key, value and mask blocks, the query axis is cut into tiles of 256.
-/
import proofs.«118998_j18983755448471_1_alg».proof.Proof.AttnBlocksIdx

noncomputable section

namespace Cert.KernelIdeal.Gen

open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Row r of the query block at point t is query position `attn_row t r` of the point's batch and head. -/
theorem attn_query_block (c : Dev nD) (t : Fin cfg3.N) (r : Fin 256) (e : Fin 64) :
    (iblk3 V c 0 t : Vec Ideal S1x1x256x64 .f32) (ix4 (0 : Fin 1) (0 : Fin 1) r e)
      = (V c main_v6 : S4x16x2048x64.Idx → EReal) (ix4 (attn_batch t) (attn_head t) (attn_row t r) e) := by
  obtain ⟨e0, e1, e2, e3⟩ := attn_index_query t
  show V c main_v6 (((cfg3.win 0).blk t).view.emb (ix4 (0 : Fin 1) (0 : Fin 1) r e)) = V c main_v6 _
  refine congrArg (V c main_v6) (funext fun a => Fin.ext ?_)
  match a with
  | ⟨0, _⟩ => show win3_0.index t (0 : Fin 4) * 1 + 1 * 0 = t.val / 128; omega
  | ⟨1, _⟩ => show win3_0.index t (1 : Fin 4) * 1 + 1 * 0 = t.val % 16; omega
  | ⟨2, _⟩ => show win3_0.index t (2 : Fin 4) * 256 + 1 * r.val = t.val / 16 % 8 * 256 + r.val; omega
  | ⟨3, _⟩ => show win3_0.index t (3 : Fin 4) * 64 + 1 * e.val = e.val; omega

/-- The key block at point t is the keys of the point's batch and head. -/
theorem attn_key_block (c : Dev nD) (t : Fin cfg3.N) (j : Fin 2048) (e : Fin 64) :
    (iblk3 V c 1 t : Vec Ideal S1x1x2048x64 .f32) (ix4 (0 : Fin 1) (0 : Fin 1) j e)
      = (V c main_v10 : S4x16x2048x64.Idx → EReal) (ix4 (attn_batch t) (attn_head t) j e) := by
  obtain ⟨e0, e1, e2, e3⟩ := attn_index_key t
  show V c main_v10 (((cfg3.win 1).blk t).view.emb (ix4 (0 : Fin 1) (0 : Fin 1) j e)) = V c main_v10 _
  refine congrArg (V c main_v10) (funext fun a => Fin.ext ?_)
  match a with
  | ⟨0, _⟩ => show win3_1.index t (0 : Fin 4) * 1 + 1 * 0 = t.val / 128; omega
  | ⟨1, _⟩ => show win3_1.index t (1 : Fin 4) * 1 + 1 * 0 = t.val % 16; omega
  | ⟨2, _⟩ => show win3_1.index t (2 : Fin 4) * 2048 + 1 * j.val = j.val; omega
  | ⟨3, _⟩ => show win3_1.index t (3 : Fin 4) * 64 + 1 * e.val = e.val; omega

/-- The value block at point t is the values of the point's batch and head. -/
theorem attn_value_block (c : Dev nD) (t : Fin cfg3.N) (j : Fin 2048) (e : Fin 64) :
    (iblk3 V c 2 t : Vec Ideal S1x1x2048x64 .f32) (ix4 (0 : Fin 1) (0 : Fin 1) j e)
      = (V c main_v14 : S4x16x2048x64.Idx → EReal) (ix4 (attn_batch t) (attn_head t) j e) := by
  obtain ⟨e0, e1, e2, e3⟩ := attn_index_value t
  show V c main_v14 (((cfg3.win 2).blk t).view.emb (ix4 (0 : Fin 1) (0 : Fin 1) j e)) = V c main_v14 _
  refine congrArg (V c main_v14) (funext fun a => Fin.ext ?_)
  match a with
  | ⟨0, _⟩ => show win3_2.index t (0 : Fin 4) * 1 + 1 * 0 = t.val / 128; omega
  | ⟨1, _⟩ => show win3_2.index t (1 : Fin 4) * 1 + 1 * 0 = t.val % 16; omega
  | ⟨2, _⟩ => show win3_2.index t (2 : Fin 4) * 2048 + 1 * j.val = j.val; omega
  | ⟨3, _⟩ => show win3_2.index t (3 : Fin 4) * 64 + 1 * e.val = e.val; omega

/-- Row r of the mask block at point t is the mask of query position `attn_row t r` of the point's batch. -/
theorem attn_mask_block (c : Dev nD) (t : Fin cfg3.N) (r : Fin 256) (j : Fin 2048) :
    (iblk3 V c 3 t : Vec Ideal S1x256x2048 .i32) (ix3 (0 : Fin 1) r j)
      = (V c main_arg3 : S4x2048x2048.Idx → BitVec 32) (ix3 (attn_batch t) (attn_row t r) j) := by
  obtain ⟨e0, e1, e2⟩ := attn_index_mask t
  show V c main_arg3 (((cfg3.win 3).blk t).view.emb (ix3 (0 : Fin 1) r j)) = V c main_arg3 _
  refine congrArg (V c main_arg3) (funext fun a => Fin.ext ?_)
  match a with
  | ⟨0, _⟩ => show win3_3.index t (0 : Fin 3) * 1 + 1 * 0 = t.val / 128; omega
  | ⟨1, _⟩ => show win3_3.index t (1 : Fin 3) * 256 + 1 * r.val = t.val / 16 % 8 * 256 + r.val; omega
  | ⟨2, _⟩ => show win3_3.index t (2 : Fin 3) * 2048 + 1 * j.val = j.val; omega

end Cert.KernelIdeal.Gen

end
-- ==== Proof.Attn.lean ====
/-
  The attention region of the kernel: its output array after the run is the specification's attention.

  The region runs on 512 grid points (batch b, tile of 256 query positions, head h). Point t stages the tile's
  queries, all keys and values of head h of batch b, and the tile's rows of the mask; its body stores one whole
  block, which is written back to rows tile · 256 … tile · 256 + 255 of head h of batch b of the output array
  [4, 16, 2048, 64]. So

    * entry (0, 0, r, d) of what point t writes back is the attention of query position tile · 256 + r against the
      2048 keys of (b, h), at feature d: it depends on one row of the queries and of the mask and on all keys and
      values of the head — exactly what the point's blocks hold — and it is the entry of the specification's
      array at the place of the output block's element (0, 0, r, d); hence point t writes back block t of the
      specification's array;
    * entry (b, h, i, d) of the output is covered by the block of the point with coordinates (b, i / 256, h), the
      point number (b · 8 + i / 256) · 16 + h, so the 512 blocks cover the array,

  and an array every index of which some point's block covers, each block written with the block of one function,
  ends holding that function.
-/
import proofs.«118998_j18983755448471_1_alg».proof.Proof.AttnBlocksEntry
import proofs.«118998_j18983755448471_1_alg».proof.Proof.AttnBlocksRead
import Idealize.ShloMosaic.Lib.Pipeline.Value

noncomputable section

namespace Cert.KernelIdeal.Gen

open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- What point t writes back is block t of the specification's attention of the arrays as the region finds them. -/
theorem attn_flushed (c : Dev nD) (t : Fin cfg3.N) :
    (dat3 (F := Ideal) V c).flushed 4 t
      = ((cfg3.win 4).blk t).view.read (Elt Ideal)
          (Cert.Spec.attn (V c main_v6) (V c main_v10) (V c main_v14) (V c main_arg3)) := by
  show (cfg3.win 4).cut (grid3.coords t) ((dat3 V c).after 4 t) = _
  rw [after3_4]
  -- the body's one store fills its whole block; its loads read the whole input blocks
  unfold out3_4
  rw [View.canon_unit_zero attn_zero_offsets4]
  simp only [View.ld_unit_zero (S := S1x1x256x64) attn_zero_offsets4,
    View.ld_unit_zero (S := S1x1x2048x64) attn_zero_offsets4, View.ld_unit_zero (S := S1x256x2048) attn_zero_offsets3]
  obtain ⟨e0, e1, e2, e3⟩ := attn_index_out t
  funext j
  refine (attn_block_entry (V c main_v6) (V c main_v10) (V c main_v14) (V c main_arg3)
    (iblk3 V c 0 t) (iblk3 V c 1 t) (iblk3 V c 2 t) (iblk3 V c 3 t) (attn_batch t) (attn_head t) (attn_row t)
    (attn_query_block V c t) (attn_key_block V c t) (attn_value_block V c t) (attn_mask_block V c t) j).trans ?_
  -- the output block's element j sits in the array at (batch, head, tile · 256 + j 2, j 3)
  show Cert.Spec.attnAt (V c main_v6) (V c main_v10) (V c main_v14) (V c main_arg3) _ _ _ _
    = Cert.Spec.attnAt (V c main_v6) (V c main_v10) (V c main_v14) (V c main_arg3)
        ((((cfg3.win 4).blk t).view.emb j) 0) ((((cfg3.win 4).blk t).view.emb j) 1)
        ((((cfg3.win 4).blk t).view.emb j) 2) ((((cfg3.win 4).blk t).view.emb j) 3)
  have hj0 : (j 0).val < 1 := (j 0).isLt
  have hj1 : (j 1).val < 1 := (j 1).isLt
  have h0 : attn_batch t = (((cfg3.win 4).blk t).view.emb j) 0 :=
    Fin.ext (by show t.val / 128 = win3_4.index t (0 : Fin 4) * 1 + 1 * (j 0).val; omega)
  have h1 : attn_head t = (((cfg3.win 4).blk t).view.emb j) 1 :=
    Fin.ext (by show t.val % 16 = win3_4.index t (1 : Fin 4) * 1 + 1 * (j 1).val; omega)
  have h2 : attn_row t (j 2) = (((cfg3.win 4).blk t).view.emb j) 2 :=
    Fin.ext (by show t.val / 16 % 8 * 256 + (j 2).val = win3_4.index t (2 : Fin 4) * 256 + 1 * (j 2).val; omega)
  have h3 : j 3 = (((cfg3.win 4).blk t).view.emb j) 3 :=
    Fin.ext (by show (j 3).val = win3_4.index t (3 : Fin 4) * 64 + 1 * (j 3).val; omega)
  rw [h0, h1, h2, h3]

/-- An index of the output array is in point t's block iff each coordinate is in the block's range on its axis. -/
theorem attn_mem_block (t : Fin cfg3.N) (i : S4x16x2048x64.Idx) :
    i ∈ ((cfg3.win 4).blk t).view.set ↔ ∀ a : Fin 4, win3_4.index t a * S1x1x256x64.size a ≤ (i a).val
      ∧ (i a).val < win3_4.index t a * S1x1x256x64.size a + S1x1x256x64.size a := by
  show i ∈ ((View.whole main_v15).slice (win3_4.rect t)).set ↔ _
  rw [View.set_slice_whole, Rect.mem_set_unit]
  exact Iff.rfl

/-- Entry (b, h, i, d) of the output array is in the block of the point (b, i / 256, h). -/
theorem attn_cover (i : S4x16x2048x64.Idx) :
    ∃ t : Fin cfg3.N, (cfg3.win 4).flush t = true ∧ i ∈ ((cfg3.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  have hN : cfg3.N = 512 := N_3
  obtain ⟨t, ht⟩ : ∃ t : Fin cfg3.N, t.val = ((i 0).val * 8 + (i 2).val / 256) * 16 + (i 1).val :=
    ⟨⟨((i 0).val * 8 + (i 2).val / 256) * 16 + (i 1).val, by rw [hN]; omega⟩, rfl⟩
  obtain ⟨e0, e1, e2, e3⟩ := attn_index_out t
  refine ⟨t, flush3_4 t, ?_⟩
  rw [attn_mem_block]
  intro a
  match a with
  | ⟨0, _⟩ =>
    show win3_4.index t (0 : Fin 4) * 1 ≤ (i 0).val ∧ (i 0).val < win3_4.index t (0 : Fin 4) * 1 + 1
    omega
  | ⟨1, _⟩ =>
    show win3_4.index t (1 : Fin 4) * 1 ≤ (i 1).val ∧ (i 1).val < win3_4.index t (1 : Fin 4) * 1 + 1
    omega
  | ⟨2, _⟩ =>
    show win3_4.index t (2 : Fin 4) * 256 ≤ (i 2).val ∧ (i 2).val < win3_4.index t (2 : Fin 4) * 256 + 256
    omega
  | ⟨3, _⟩ =>
    show win3_4.index t (3 : Fin 4) * 64 ≤ (i 3).val ∧ (i 3).val < win3_4.index t (3 : Fin 4) * 64 + 64
    omega

/-- The output array after the region is the specification's attention of the query, key, value and mask arrays
    as the region finds them. -/
theorem attn_final (c : Dev nD) :
    (dat3 (F := Ideal) V c).arrAt 4 cfg3.N
      = Cert.Spec.attn (V c main_v6) (V c main_v10) (V c main_v14) (V c main_arg3) :=
  (dat3 V c).arrAt_eq_of_cover 4 (Cert.Spec.attn (V c main_v6) (V c main_v10) (V c main_v14) (V c main_arg3))
    (fun t _ => attn_flushed V c t) attn_cover

end Cert.KernelIdeal.Gen

end
-- ==== Proof.OLnPay.lean ====
/-
  The body of the fourth region at one entry of its block, on the extended reals.

  The body works on a block of 512 rows. It multiplies the rows x [512, 1024] by the matrix w [1024, 1024]
  (stored [in, out]) into a zero accumulator, adds the residual rows, and normalises each row y of the sum over
  its 1024 features: with μ the row's mean (the row sum divided by 1024) and v the mean of the squared deviations
  (y − μ)², the entry (r, e) of the result is (y e − μ) · rsqrt (v + ε) · γ e + β e, with γ and β vectors of 1024
  entries. The two means are computed as columns [512, 1] and repeated along the rows, γ and β are made rows
  [1, 1024] and repeated down the 512 rows. Read at (r, e), a repeated column is the column's value at r and a
  repeated row is the vector's entry e, so the whole body is `Cert.Spec.lnRow` of the row
  e' ↦ ∑ k, x (r, k) · w (k, e') + res (r, e').
-/
import proofs.«118998_j18983755448471_1_alg».proof.Proof.Gen.KernelIdeal.Skeleton
import proofs.«118998_j18983755448471_1_alg».proof.Proof.Spec
import proofs.«118998_j18983755448471_1_alg».proof.Proof.LibPlainDot
import proofs.«118998_j18983755448471_1_alg».proof.Proof.LibColumn
import Idealize.ShloMosaic.Lib.ValueLayout

noncomputable section

open scoped BigOperators

namespace Cert.KernelIdeal.Gen

open Idealize.ShloMosaic Idealize.ShloMosaic.ValueIdx

/-! ## The pieces of the normalisation, named -/

/-- The column of row means of a block: the row sums, cast to a column, divided by 1024. -/
def meanCol (v : FVec Ideal S512x1024 .f32) : FVec Ideal S512x1 .f32 :=
  divf (shapeCast S512x1 (multiReduction (F := Ideal) .add [1] S512 v 0x00000000#32 reduces_S512x1024_S512 (.inl rfl) rfl)
      shapeCasts_S512_S512x1)
    (broadcast S512x1 (Scalar.ofBits (F := Ideal) .f32 0x44800000#32))

/-- The deviations of a block's entries from their row's mean. -/
def dev (y : FVec Ideal S512x1024 .f32) : FVec Ideal S512x1024 .f32 :=
  subf y (broadcastTo S512x1024 (meanCol y) broadcasts_S512x1_S512x1024)

/-- The column of rsqrt (v + ε), v the row's mean squared deviation. -/
def rstdCol (y : FVec Ideal S512x1024 .f32) : FVec Ideal S512x1 .f32 :=
  rsqrt (addf (meanCol (mulf (dev y) (dev y))) (broadcast S512x1 (Scalar.ofBits (F := Ideal) .f32 0x3727C5AC#32)))

/-- A vector of 1024 features made a row and repeated down the 512 rows of a block. -/
def rowsOf (g : Vec Ideal S1024 .f32) : FVec Ideal S512x1024 .f32 :=
  broadcastTo S512x1024 (shapeCast S1x1024 g shapeCasts_S1024_S1x1024) broadcasts_S1x1024_S512x1024

/-- The normalisation of a block's rows with scale g and shift be. -/
def lnPay (y : FVec Ideal S512x1024 .f32) (g be : Vec Ideal S1024 .f32) : FVec Ideal S512x1024 .f32 :=
  addf (mulf (mulf (dev y) (broadcastTo S512x1024 (rstdCol y) broadcasts_S512x1_S512x1024)) (rowsOf g)) (rowsOf be)

/-- The rows times the matrix into the zero accumulator, plus the residual rows. The two operands pass through a
    change of format, which is the identity on the extended reals, and through a cast of a shape to itself. -/
def projRes (x : Vec Ideal S512x1024 .f32) (w : Vec Ideal S1024x1024 .f32) (res : Vec Ideal S512x1024 .f32) :
    FVec Ideal S512x1024 .f32 :=
  addf (matmul dot_S512x1024_S1024x1024_S512x1024_1_0_0_1_n_n none
      (truncf .bf16 (shapeCast S512x1024 x shapeCasts_S512x1024_S512x1024) bitsLt_bf16_f32)
      (truncf .bf16 (shapeCast S1024x1024 w shapeCasts_S1024x1024_S1024x1024) bitsLt_bf16_f32)
      (constant (F := Ideal) S512x1024 .f32 0x00000000#32))
    (shapeCast S512x1024 res shapeCasts_S512x1024_S512x1024)

/-- The body's stored value is the normalisation of the projected rows plus the residual: the same operations in
    the same order, the intermediate values named. -/
theorem k4_pay1_eq (x : Vec Ideal S512x1024 .f32) (w : Vec Ideal S1024x1024 .f32) (res : Vec Ideal S512x1024 .f32)
    (g be : Vec Ideal S1024 .f32) : k4_pay1 (F := Ideal) x w res g be = lnPay (projRes x w res) g be := rfl

/-! ## Each piece at an entry -/

/-- The mean column at row r (its one column u) is the mean of the block's row r. -/
theorem meanCol_apply (v : FVec Ideal S512x1024 .f32) (r : Fin 512) (u : Fin 1) :
    meanCol v (ix2 r u) = Cert.Spec.mean (fun j => v (ix2 r j)) := by
  show Ideal.div _ _ = Ideal.div _ _
  refine congrArg (fun a => Ideal.div a (Ideal.ofBits .f32 0x44800000#32)) ?_
  refine (Cert.LibColumn.shapeCast_a_a1_apply _ shapeCasts_S512_S512x1 r u).trans ?_
  exact Cert.LibColumn.rowSum_apply v reduces_S512x1024_S512 (.inl rfl) rfl r

/-- The deviation at (r, e) is the entry minus the mean of row r: the mean column repeated along the row reads
    its value at r. -/
theorem dev_apply (y : FVec Ideal S512x1024 .f32) (r : Fin 512) (e : Fin 1024) :
    dev y (ix2 r e) = y (ix2 r e) - Cert.Spec.mean (fun j => y (ix2 r j)) := by
  show y (ix2 r e) - _ = _
  refine congrArg (fun a => y (ix2 r e) - a) ?_
  exact (Cert.LibColumn.broadcastTo_a1_ab_apply _ broadcasts_S512x1_S512x1024 r e).trans (meanCol_apply y r 0)

/-- The rsqrt column at row r: the mean over the row of the squared deviations, plus ε, under rsqrt. -/
theorem rstdCol_apply (y : FVec Ideal S512x1024 .f32) (r : Fin 512) (u : Fin 1) :
    rstdCol y (ix2 r u)
      = Ideal.rsqrt (Cert.Spec.mean (fun j => (y (ix2 r j) - Cert.Spec.mean (fun j' => y (ix2 r j')))
            * (y (ix2 r j) - Cert.Spec.mean (fun j' => y (ix2 r j')))) + Ideal.ofBits .f32 0x3727C5AC#32) := by
  show Ideal.rsqrt (meanCol (mulf (dev y) (dev y)) (ix2 r u) + Ideal.ofBits .f32 0x3727C5AC#32) = _
  refine congrArg (fun a => Ideal.rsqrt (a + Ideal.ofBits .f32 0x3727C5AC#32)) ?_
  refine (meanCol_apply _ r u).trans ?_
  refine congrArg Cert.Spec.mean (funext fun j => ?_)
  show dev y (ix2 r j) * dev y (ix2 r j) = _
  rw [dev_apply]

/-- A vector made a row and repeated down the rows reads, at (r, e), its entry e. -/
theorem rowsOf_apply (g : Vec Ideal S1024 .f32) (r : Fin 512) (e : Fin 1024) : rowsOf g (ix2 r e) = g (ix1 e) :=
  (broadcastTo_1b_ab_apply _ broadcasts_S1x1024_S512x1024 r e).trans (shapeCast_a_1a_apply g shapeCasts_S1024_S1x1024 0 e)

/-- The normalisation at (r, e) is `lnRow` of row r of the block. -/
theorem lnPay_apply (y : FVec Ideal S512x1024 .f32) (g be : Vec Ideal S1024 .f32) (r : Fin 512) (e : Fin 1024) :
    lnPay y g be (ix2 r e)
      = Cert.Spec.lnRow (fun e' => y (ix2 r e')) (fun e' => g (ix1 e')) (fun e' => be (ix1 e')) e := by
  show dev y (ix2 r e) * broadcastTo S512x1024 (rstdCol y) broadcasts_S512x1_S512x1024 (ix2 r e) * rowsOf g (ix2 r e)
      + rowsOf be (ix2 r e) = _
  rw [dev_apply, rowsOf_apply, rowsOf_apply,
    (Cert.LibColumn.broadcastTo_a1_ab_apply (rstdCol y) broadcasts_S512x1_S512x1024 r e).trans (rstdCol_apply y r 0)]
  rfl

/-- The projected rows plus the residual at (r, e'): the sum over the 1024 input features k of x (r, k) · w (k, e'),
    plus res (r, e'). The printed dimension numbers are those of the plain product. -/
theorem projRes_apply (x : Vec Ideal S512x1024 .f32) (w : Vec Ideal S1024x1024 .f32) (res : Vec Ideal S512x1024 .f32)
    (r : Fin 512) (e' : Fin 1024) :
    projRes x w res (ix2 r e') = (∑ k : Fin 1024, x (ix2 r k) * w (ix2 k e')) + res (ix2 r e') := by
  show FloatOps.matmul (DotDims.plain 512 1024 1024) none
        (truncf .bf16 (shapeCast S512x1024 x shapeCasts_S512x1024_S512x1024) bitsLt_bf16_f32)
        (truncf .bf16 (shapeCast S1024x1024 w shapeCasts_S1024x1024_S1024x1024) bitsLt_bf16_f32)
        (constant (F := Ideal) ⟨2, ![512, 1024]⟩ .f32 0x00000000#32) (ix2 r e')
      + shapeCast S512x1024 res shapeCasts_S512x1024_S512x1024 (ix2 r e') = _
  rw [Cert.LibPlainDot.matmul_zero_apply, shapeCast_self, shapeCast_self, shapeCast_self]
  rfl

/-! ## The body at an entry -/

/-- THE BODY AT (r, e): the LayerNorm, at feature e, of the row e' ↦ ∑ k, x (r, k) · w (k, e') + res (r, e') with
    scale g and shift be. -/
theorem k4_pay1_apply (x : Vec Ideal S512x1024 .f32) (w : Vec Ideal S1024x1024 .f32) (res : Vec Ideal S512x1024 .f32)
    (g be : Vec Ideal S1024 .f32) (r : Fin 512) (e : Fin 1024) :
    k4_pay1 (F := Ideal) x w res g be (ix2 r e)
      = Cert.Spec.lnRow (fun e' => (∑ k : Fin 1024, x (ix2 r k) * w (ix2 k e')) + res (ix2 r e'))
          (fun e' => g (ix1 e')) (fun e' => be (ix1 e')) e := by
  rw [k4_pay1_eq, lnPay_apply]
  exact congrArg (fun y => Cert.Spec.lnRow y (fun e' => g (ix1 e')) (fun e' => be (ix1 e')) e)
    (funext fun e' => projRes_apply x w res r e')

end Cert.KernelIdeal.Gen

end
-- ==== Proof.OLnBlocks.lean ====
/-
  The blocks of the fourth region: where each window's block at a grid point lies in its array.

  The grid has 16 points. At point t the rows window, the residual window and the output window hold the block of
  512 rows t · 512 … t · 512 + 511 of their arrays [8192, 1024], over all 1024 columns; the weight window holds the
  whole matrix [1024, 1024] and the scale and shift windows the whole vectors [1024], at every point. An entry of a
  block sits in the array, on each axis, at the block index times the block's size plus its own coordinate; the
  block indices are the printed index maps, read off once for all 16 points.
-/
import proofs.«118998_j18983755448471_1_alg».proof.Proof.Gen.KernelIdeal.Frame
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat Cfg Window)

/-- The body's loads and its store go through rectangles at offsets (0, 0) … -/
theorem off2_zero : (![0, 0] : Fin 2 → Nat) = fun _ => 0 := funext fun a => by fin_cases a <;> rfl
/-- … and, for the two vectors, at offset (0). -/
theorem off1_zero : (![0] : Fin 1 → Nat) = fun _ => 0 := funext fun a => by fin_cases a <;> rfl

/-- The printed index maps at every point of the grid: the three row-block windows (0: rows, 2: residual, 5: output)
    are at block (t, 0); the weight, scale and shift windows (1, 3, 4) stay at block 0. -/
theorem index_maps4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 1) = 0 ∧ win4_4.index t (0 : Fin 1) = 0
    ∧ win4_5.index t (0 : Fin 2) = t.val ∧ win4_5.index t (1 : Fin 2) = 0 :=
  (by decide +kernel : ∀ t : Fin grid4.N, _)

/-- A point of the grid is below 16. -/
theorem point_lt (t : Fin cfg4.N) : t.val < 16 := lt_of_lt_of_eq t.isLt N_4

/-- Row r of the row block of point t is row t · 512 + r of the array. -/
def rowOf (t : Fin cfg4.N) (r : Fin 512) : Fin 8192 :=
  ⟨t.val * 512 + r.val, by have := point_lt t; have := r.isLt; omega⟩

variable (V : (c : Dev nD) → (b : Ref sig .tc) → Buf (Elt Ideal) ((c : Thread nD τ).loc b))

/-- The rows window's block at point t reads, at (r, k), the rows array at (t · 512 + r, k). -/
theorem iblk4_rows_apply (c : Dev nD) (t : Fin cfg4.N) (r : Fin 512) (k : Fin 1024) :
    (iblk4 (F := Ideal) V c 0 t : Vec Ideal S512x1024 .f32) (ix2 r k)
      = (V c main_v17 : S8192x1024.Idx → EReal) (ix2 (rowOf t r) k) := by
  obtain ⟨e0, e1, -⟩ := index_maps4 t
  unfold iblk4
  rw [View.read_apply]
  show V c main_v17 _ = V c main_v17 _
  refine congrArg (V c main_v17) (funext fun a => Fin.ext ?_)
  match a with
  | ⟨0, _⟩ => show win4_0.index t 0 * 512 + 1 * r.val = t.val * 512 + r.val; rw [e0]; omega
  | ⟨1, _⟩ => show win4_0.index t 1 * 1024 + 1 * k.val = k.val; rw [e1]; omega

/-- The weight window's block is the whole matrix, at every point. -/
theorem iblk4_weight_apply (c : Dev nD) (t : Fin cfg4.N) (k e : Fin 1024) :
    (iblk4 (F := Ideal) V c 1 t : Vec Ideal S1024x1024 .f32) (ix2 k e)
      = (V c main_v19 : S1024x1024.Idx → EReal) (ix2 k e) := by
  obtain ⟨-, -, e0, e1, -⟩ := index_maps4 t
  unfold iblk4
  rw [View.read_apply]
  show V c main_v19 _ = V c main_v19 _
  refine congrArg (V c main_v19) (funext fun a => Fin.ext ?_)
  match a with
  | ⟨0, _⟩ => show win4_1.index t 0 * 1024 + 1 * k.val = k.val; rw [e0]; omega
  | ⟨1, _⟩ => show win4_1.index t 1 * 1024 + 1 * e.val = e.val; rw [e1]; omega

/-- The residual window's block at point t reads, at (r, e), the residual array at (t · 512 + r, e). -/
theorem iblk4_res_apply (c : Dev nD) (t : Fin cfg4.N) (r : Fin 512) (e : Fin 1024) :
    (iblk4 (F := Ideal) V c 2 t : Vec Ideal S512x1024 .f32) (ix2 r e)
      = (V c main_v18 : S8192x1024.Idx → EReal) (ix2 (rowOf t r) e) := by
  obtain ⟨-, -, -, -, e0, e1, -⟩ := index_maps4 t
  unfold iblk4
  rw [View.read_apply]
  show V c main_v18 _ = V c main_v18 _
  refine congrArg (V c main_v18) (funext fun a => Fin.ext ?_)
  match a with
  | ⟨0, _⟩ => show win4_2.index t 0 * 512 + 1 * r.val = t.val * 512 + r.val; rw [e0]; omega
  | ⟨1, _⟩ => show win4_2.index t 1 * 1024 + 1 * e.val = e.val; rw [e1]; omega

/-- The scale window's block is the whole vector, at every point. -/
theorem iblk4_scale_apply (c : Dev nD) (t : Fin cfg4.N) (e : Fin 1024) :
    (iblk4 (F := Ideal) V c 3 t : Vec Ideal S1024 .f32) (ix1 e) = (V c main_arg8 : S1024.Idx → EReal) (ix1 e) := by
  obtain ⟨-, -, -, -, -, -, e0, -⟩ := index_maps4 t
  unfold iblk4
  rw [View.read_apply]
  show V c main_arg8 _ = V c main_arg8 _
  refine congrArg (V c main_arg8) (funext fun a => Fin.ext ?_)
  match a with
  | ⟨0, _⟩ => show win4_3.index t 0 * 1024 + 1 * e.val = e.val; rw [e0]; omega

/-- The shift window's block is the whole vector, at every point. -/
theorem iblk4_shift_apply (c : Dev nD) (t : Fin cfg4.N) (e : Fin 1024) :
    (iblk4 (F := Ideal) V c 4 t : Vec Ideal S1024 .f32) (ix1 e) = (V c main_arg9 : S1024.Idx → EReal) (ix1 e) := by
  obtain ⟨-, -, -, -, -, -, -, e0, -⟩ := index_maps4 t
  unfold iblk4
  rw [View.read_apply]
  show V c main_arg9 _ = V c main_arg9 _
  refine congrArg (V c main_arg9) (funext fun a => Fin.ext ?_)
  match a with
  | ⟨0, _⟩ => show win4_4.index t 0 * 1024 + 1 * e.val = e.val; rw [e0]; omega

/-- Entry (r, e) of the output block of point t sits at (t · 512 + r, e) of the output array. -/
theorem outBlock_emb (t : Fin cfg4.N) (r : Fin 512) (e : Fin 1024) :
    (((cfg4.win 5).blk t).view.emb (ix2 r e) : S8192x1024.Idx) = ix2 (rowOf t r) e := by
  obtain ⟨-, -, -, -, -, -, -, -, e0, e1⟩ := index_maps4 t
  refine funext fun a => Fin.ext ?_
  match a with
  | ⟨0, _⟩ => show win4_5.index t 0 * 512 + 1 * r.val = t.val * 512 + r.val; rw [e0]; omega
  | ⟨1, _⟩ => show win4_5.index t 1 * 1024 + 1 * e.val = e.val; rw [e1]; omega

/-- An index of the output array is in point t's block iff each coordinate is in the block's range on its axis. -/
theorem mem_outBlock (t : Fin cfg4.N) (i : S8192x1024.Idx) :
    i ∈ ((cfg4.win 5).blk t).view.set ↔ ∀ a : Fin 2, win4_5.index t a * S512x1024.size a ≤ (i a).val
      ∧ (i a).val < win4_5.index t a * S512x1024.size a + S512x1024.size a := by
  show i ∈ ((View.whole main_v20).slice (win4_5.rect t)).set ↔ _
  rw [View.set_slice_whole, Rect.mem_set_unit]
  exact Iff.rfl

/-- The output blocks cover the output array: row p is in the block of point p / 512, and every point writes its
    block back. -/
theorem outBlocks_cover (i : S8192x1024.Idx) :
    ∃ t : Fin cfg4.N, (cfg4.win 5).flush t = true ∧ i ∈ ((cfg4.win 5).blk t).view.set := by
  have hi0 : (i 0).val < 8192 := (i 0).isLt
  have hi1 : (i 1).val < 1024 := (i 1).isLt
  obtain ⟨t, ht⟩ : ∃ t : Fin cfg4.N, t.val = (i 0).val / 512 :=
    ⟨⟨(i 0).val / 512, by rw [show cfg4.N = 16 from N_4]; omega⟩, rfl⟩
  obtain ⟨-, -, -, -, -, -, -, -, e0, e1⟩ := index_maps4 t
  refine ⟨t, flush4_5 t, ?_⟩
  rw [mem_outBlock]
  intro a
  match a with
  | ⟨0, _⟩ =>
    show win4_5.index t 0 * 512 ≤ (i 0).val ∧ (i 0).val < win4_5.index t 0 * 512 + 512
    rw [e0, ht]; omega
  | ⟨1, _⟩ =>
    show win4_5.index t 1 * 1024 ≤ (i 1).val ∧ (i 1).val < win4_5.index t 1 * 1024 + 1024
    rw [e1]; omega

end Cert.KernelIdeal.Gen

end
-- ==== Proof.OLn.lean ====
/-
  The fourth region's output array after its run is the specification's `oln` of the arrays the region finds.

  At grid point t the body stores, over its whole output block, the LayerNorm of the projected rows plus the
  residual (the body at an entry, read on the extended reals), computed from the input windows' blocks at t. Row r
  of the rows block and of the residual block is row t · 512 + r of their arrays, the weight, scale and shift
  blocks are the whole arrays, and entry (r, e) of the output block is entry (t · 512 + r, e) of the output array.
  So what point t writes back is block t of ONE function of the whole arrays, `Cert.Spec.oln`: its value at row
  p = t · 512 + r depends on row p of the rows and of the residual only. The 16 blocks cover the 8192 rows, so the
  array ends holding that function.
-/
import proofs.«118998_j18983755448471_1_alg».proof.Proof.OLnPay
import proofs.«118998_j18983755448471_1_alg».proof.Proof.OLnBlocks

noncomputable section

open scoped BigOperators

namespace Cert.KernelIdeal.Gen

open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Two functions of a block's entries are equal if they agree at every (r, e). -/
theorem block_ext {α : Type} (f g : S512x1024.Idx → α)
    (h : ∀ (r : Fin 512) (e : Fin 1024), f (ix2 r e) = g (ix2 r e)) : f = g :=
  funext fun j => by rw [eq_ix2 j]; exact h _ _

/-- WHAT POINT t WRITES BACK is block t of the specification's array. The body's one store covers the block, so the
    block after the body is the stored value; at (r, e) that is the LayerNorm of the row built from the input
    blocks' rows r, and those are the arrays' rows t · 512 + r, the row the specification normalises at the array
    entry (t · 512 + r, e) under the block's entry (r, e). -/
theorem flushed4_5_eq (c : Dev nD) (t : Fin cfg4.N) :
    (dat4 (F := Ideal) V c).flushed 5 t
      = ((cfg4.win 5).blk t).view.read (Elt Ideal)
          (Cert.Spec.oln (V c main_v17) (V c main_v19) (V c main_v18) (V c main_arg8) (V c main_arg9)) := by
  show (cfg4.win 5).cut (grid4.coords t) ((dat4 V c).after 5 t) = _
  rw [after4_5]
  unfold out4_5
  rw [View.canon_unit_zero off2_zero]
  simp only [View.ld_unit_zero (S := S512x1024) off2_zero, View.ld_unit_zero (S := S1024x1024) off2_zero,
    View.ld_unit_zero (S := S1024) off1_zero]
  refine block_ext _ _ fun r e => ?_
  show k4_pay1 (F := Ideal) (iblk4 V c 0 t) (iblk4 V c 1 t) (iblk4 V c 2 t) (iblk4 V c 3 t) (iblk4 V c 4 t) (ix2 r e)
    = Cert.Spec.oln (V c main_v17) (V c main_v19) (V c main_v18) (V c main_arg8) (V c main_arg9)
        (((cfg4.win 5).blk t).view.emb (ix2 r e))
  rw [outBlock_emb, k4_pay1_apply]
  show _ = Cert.Spec.olnAt (V c main_v17) (V c main_v19) (V c main_v18) (V c main_arg8) (V c main_arg9) (rowOf t r) e
  unfold Cert.Spec.olnAt Cert.Spec.linearAt
  simp only [iblk4_rows_apply, iblk4_weight_apply, iblk4_res_apply, iblk4_scale_apply, iblk4_shift_apply]

/-- THE OUTPUT ARRAY after the region's run: every point writes back its block of `Cert.Spec.oln` of the arrays as
    the region finds them, and the blocks cover the array. -/
theorem oln_final (c : Dev nD) :
    (dat4 (F := Ideal) V c).arrAt 5 cfg4.N
      = Cert.Spec.oln (V c main_v17) (V c main_v19) (V c main_v18) (V c main_arg8) (V c main_arg9) :=
  (dat4 (F := Ideal) V c).arrAt_eq_of_cover 5
    (Cert.Spec.oln (V c main_v17) (V c main_v19) (V c main_v18) (V c main_arg8) (V c main_arg9))
    (fun t _ => flushed4_5_eq V c t) outBlocks_cover

end Cert.KernelIdeal.Gen

end
-- ==== Proof.GlueProj.lean ====
/-
  The layout around a linear region: rows times a matrix, regrouped into heads, is the specification's projection.

  The kernel's program flattens the activations x [4, 2048, 1024] to rows [8192, 1024] (row b·2048 + s is
  position s of batch b), transposes the weight W [out, in] to [in, out], multiplies, views the product
  [8192, 1024] as [4, 2048, 16, 64] (column h·64 + d is feature d of head h) and exchanges the position and head
  axes. Entry (b, h, s, d) of the result is therefore entry (b·2048 + s, h·64 + d) of the product,

      ∑ k, x (b, s, k) · W (h·64 + d, k),

  which is the specification's projection split into heads.
-/
import proofs.«118998_j18983755448471_1_alg».proof.Proof.Gen.KernelIdeal
import proofs.«118998_j18983755448471_1_alg».proof.Proof.Spec
import Idealize.ShloMosaic.Lib.Pipeline.Value

noncomputable section

namespace Cert.KernelIdeal.Gen

open Idealize.ShloMosaic Idealize.ShloMosaic.ValueIdx

/-- Row b·2048 + s of the flattened activations. -/
def projRow (b : Fin 4) (s : Fin 2048) : Fin 8192 :=
  ⟨b.val * 2048 + s.val, by have := b.isLt; have := s.isLt; omega⟩

/-- Column h·64 + d of the product: feature d of head h. -/
def projCol (h : Fin 16) (d : Fin 64) : Fin 1024 :=
  ⟨h.val * 64 + d.val, by have := h.isLt; have := d.isLt; omega⟩

/-- The flattened activations at (b·2048 + s, k) are the activations at (b, s, k): the same row-major position. -/
theorem proj_rows_apply (x : Cert.Spec.SX.Idx → EReal) (h1 : S4x2048x1024.ShapeCasts S8192x1024)
    (b : Fin 4) (s : Fin 2048) (k : Fin 1024) :
    shapeCast S8192x1024 x h1 (ix2 (projRow b s) k) = x (ix3 b s k) :=
  shapeCast_apply x h1 (ix2 (projRow b s) k) (ix3 b s k) (by
    rw [Shape.rowMajor_val_three, Shape.rowMajor_val_two]
    show (b.val * 2048 + s.val) * 1024 + k.val = (b.val * 2048 + s.val) * 1024 + k.val
    rfl)

/-- The transposed weight at (k, q) is the weight at (q, k). -/
theorem proj_weight_apply (W : Cert.Spec.SW.Idx → EReal) (h2 : S1024x1024.Transposes [1, 0] S1024x1024)
    (k q : Fin 1024) :
    transpose S1024x1024 [1, 0] W h2 (ix2 k q) = W (ix2 q k) :=
  transpose_apply [1, 0] W h2 (ix2 k q) (ix2 q k) (fun a => match a with
    | ⟨0, _⟩ => rfl
    | ⟨1, _⟩ => rfl)

/-- The product of the flattened activations and the transposed weight at (b·2048 + s, q) is ∑ k, x (b, s, k) · W (q, k). -/
theorem proj_linear_apply (x : Cert.Spec.SX.Idx → EReal) (W : Cert.Spec.SW.Idx → EReal)
    (h1 : S4x2048x1024.ShapeCasts S8192x1024) (h2 : S1024x1024.Transposes [1, 0] S1024x1024)
    (b : Fin 4) (s : Fin 2048) (q : Fin 1024) :
    Cert.Spec.linear (shapeCast S8192x1024 x h1) (transpose S1024x1024 [1, 0] W h2) (ix2 (projRow b s) q)
      = ∑ k : Fin 1024, x (ix3 b s k) * W (ix2 q k) := by
  show (∑ k : Fin 1024, shapeCast S8192x1024 x h1 (ix2 (projRow b s) k) * transpose S1024x1024 [1, 0] W h2 (ix2 k q) : EReal) = _
  exact Finset.sum_congr rfl fun k _ =>
    congrArg₂ (fun u v : EReal => u * v) (proj_rows_apply x h1 b s k) (proj_weight_apply W h2 k q)

/-- The product [8192, 1024] viewed [4, 2048, 16, 64] at (b, s, h, d) is the product at (b·2048 + s, h·64 + d). -/
theorem proj_split_apply (Y : S8192x1024.Idx → EReal) (h3 : S8192x1024.ShapeCasts S4x2048x16x64)
    (b : Fin 4) (s : Fin 2048) (h : Fin 16) (d : Fin 64) :
    shapeCast S4x2048x16x64 Y h3 (ix4 b s h d) = Y (ix2 (projRow b s) (projCol h d)) :=
  shapeCast_apply Y h3 (ix4 b s h d) (ix2 (projRow b s) (projCol h d)) (by
    rw [Shape.rowMajor_val_two, Shape.rowMajor_val_four]
    show (b.val * 2048 + s.val) * 1024 + (h.val * 64 + d.val) = ((b.val * 2048 + s.val) * 16 + h.val) * 64 + d.val
    omega)

/-- Exchanging the position and head axes: entry (b, h, s, d) of the result is entry (b, s, h, d) of the operand. -/
theorem proj_swap_apply (Z : S4x2048x16x64.Idx → EReal) (h4 : S4x2048x16x64.Transposes [0, 2, 1, 3] S4x16x2048x64)
    (b : Fin 4) (h : Fin 16) (s : Fin 2048) (d : Fin 64) :
    transpose S4x16x2048x64 [0, 2, 1, 3] Z h4 (ix4 b h s d) = Z (ix4 b s h d) :=
  transpose_apply [0, 2, 1, 3] Z h4 (ix4 b h s d) (ix4 b s h d) (fun a => match a with
    | ⟨0, _⟩ => rfl
    | ⟨1, _⟩ => rfl
    | ⟨2, _⟩ => rfl
    | ⟨3, _⟩ => rfl)

/-- Flatten, multiply by the transposed weight, split into heads, exchange the axes: the specification's projection. -/
theorem projH_of_linear (x : Cert.Spec.SX.Idx → EReal) (W : Cert.Spec.SW.Idx → EReal)
    (h1 : S4x2048x1024.ShapeCasts S8192x1024) (h2 : S1024x1024.Transposes [1, 0] S1024x1024)
    (h3 : S8192x1024.ShapeCasts S4x2048x16x64) (h4 : S4x2048x16x64.Transposes [0, 2, 1, 3] S4x16x2048x64) :
    transpose S4x16x2048x64 [0, 2, 1, 3] (shapeCast S4x2048x16x64 (Cert.Spec.linear (shapeCast S8192x1024 x h1) (transpose S1024x1024 [1, 0] W h2)) h3) h4
      = Cert.Spec.projH x W := by
  funext j
  obtain ⟨b, h, s, d, rfl⟩ : ∃ (b : Fin 4) (h : Fin 16) (s : Fin 2048) (d : Fin 64), j = ix4 b h s d :=
    ⟨j 0, j 1, j 2, j 3, eq_ix4 j⟩
  refine (proj_swap_apply _ h4 b h s d).trans ?_
  refine (proj_split_apply _ h3 b s h d).trans ?_
  exact proj_linear_apply x W h1 h2 b s (projCol h d)

end Cert.KernelIdeal.Gen

end
-- ==== Proof.GlueOLn.lean ====
/-
  The output projection and LayerNorm on flattened rows, read on [batch, position, feature] arrays.

  The region works on 8192 rows: row b · 2048 + s is position s of batch b. Its rows operand is the attention output
  C [batch, head, position, head feature] with the head axis moved behind the position axis and the 16 heads of 64
  features flattened to 1024 features: feature k of row (b, s) is C (b, k / 64, s, k % 64), the merged heads. Its
  matrix operand is the weight W [out, in] transposed, so its entry (k, e') is W (e', k). Its residual operand is the
  activations x flattened to rows. So the row the LayerNorm normalises at row b · 2048 + s is
  e' ↦ ∑ k, merged (b, s, k) · W (e', k) + x (b, s, e'), the same row `Cert.Spec.olnHAt` normalises; the LayerNorm of
  equal rows is equal, and reading the result back as [batch, position, feature] puts row b · 2048 + s at (b, s).
-/
import proofs.«118998_j18983755448471_1_alg».proof.Proof.Gen.KernelIdeal
import proofs.«118998_j18983755448471_1_alg».proof.Proof.Spec
import Idealize.ShloMosaic.Lib.ValueLayout

noncomputable section

open scoped BigOperators

namespace Cert.KernelIdeal.Gen

open Idealize.ShloMosaic Idealize.ShloMosaic.ValueIdx

/-- Position s of batch b is row b · 2048 + s of the flattened rows. -/
def flatRow (b : Fin 4) (s : Fin 2048) : Fin 8192 := ⟨b.val * 2048 + s.val, by omega⟩

section Layout
variable {α : Type}

/-- A [4, 2048, 1024] array flattened to rows reads, at (b · 2048 + s, e), the array at (b, s, e): the two entries
    have the same row-major position (b · 2048 + s) · 1024 + e. -/
theorem rows_apply (x : S4x2048x1024.Idx → α) (h : S4x2048x1024.ShapeCasts S8192x1024) (b : Fin 4) (s : Fin 2048)
    (e : Fin 1024) : shapeCast S8192x1024 x h (ix2 (flatRow b s) e) = x (ix3 b s e) :=
  shapeCast_apply x h (ix2 (flatRow b s) e) (ix3 b s e) (by
    rw [Shape.rowMajor_val_three, Shape.rowMajor_val_two]
    rfl)

/-- Rows read back as [4, 2048, 1024]: at (b, s, e) the row b · 2048 + s at e. -/
theorem unrows_apply (y : S8192x1024.Idx → α) (h : S8192x1024.ShapeCasts S4x2048x1024) (b : Fin 4) (s : Fin 2048)
    (e : Fin 1024) : shapeCast S4x2048x1024 y h (ix3 b s e) = y (ix2 (flatRow b s) e) :=
  shapeCast_apply y h (ix3 b s e) (ix2 (flatRow b s) e) (by
    rw [Shape.rowMajor_val_three, Shape.rowMajor_val_two]
    rfl)

/-- The per-head array with the head axis moved behind the position axis and flattened to rows reads, at
    (b · 2048 + s, k), the array at (b, k / 64, s, k % 64). In [4, 2048, 16, 64] the entry (b, s, k / 64, k % 64) has
    row-major position ((b · 2048 + s) · 16 + k / 64) · 64 + k % 64 = (b · 2048 + s) · 1024 + k, and the transpose
    [0, 2, 1, 3] exchanges the two middle coordinates. -/
theorem merged_apply (C : S4x16x2048x64.Idx → α) (h1 : S4x16x2048x64.Transposes [0, 2, 1, 3] S4x2048x16x64)
    (h2 : S4x2048x16x64.ShapeCasts S8192x1024) (b : Fin 4) (s : Fin 2048) (k : Fin 1024) :
    shapeCast S8192x1024 (transpose S4x2048x16x64 [0, 2, 1, 3] C h1) h2 (ix2 (flatRow b s) k)
      = C (ix4 b (⟨k.val / 64, by have := k.isLt; omega⟩ : Fin 16) s (⟨k.val % 64, by omega⟩ : Fin 64)) :=
  (shapeCast_apply _ h2 (ix2 (flatRow b s) k)
      (ix4 b s (⟨k.val / 64, by have := k.isLt; omega⟩ : Fin 16) (⟨k.val % 64, by omega⟩ : Fin 64)) (by
    rw [Shape.rowMajor_val_four, Shape.rowMajor_val_two]
    show ((b.val * 2048 + s.val) * 16 + k.val / 64) * 64 + k.val % 64 = (b.val * 2048 + s.val) * 1024 + k.val
    omega)).trans
  (transpose_apply [0, 2, 1, 3] C h1 _
    (ix4 b (⟨k.val / 64, by have := k.isLt; omega⟩ : Fin 16) s (⟨k.val % 64, by omega⟩ : Fin 64)) (fun a => match a with
    | ⟨0, _⟩ => rfl
    | ⟨1, _⟩ => rfl
    | ⟨2, _⟩ => rfl
    | ⟨3, _⟩ => rfl))

end Layout

/-- THE REGION'S FUNCTION OF THE RE-LAID ARRAYS, read back on [batch, position, feature], is the output projection
    of the merged heads by W stored [out, in], plus x, LayerNorm'd: at (b, s, e) both sides are the LayerNorm at e of
    the same row. -/
theorem olnH_of_oln (C : Cert.Spec.SH.Idx → EReal) (W : Cert.Spec.SW.Idx → EReal) (x : Cert.Spec.SX.Idx → EReal)
    (g be : Cert.Spec.SG.Idx → EReal)
    (h1 : S4x16x2048x64.Transposes [0, 2, 1, 3] S4x2048x16x64) (h2 : S4x2048x16x64.ShapeCasts S8192x1024)
    (h3 : S1024x1024.Transposes [1, 0] S1024x1024) (h4 : S4x2048x1024.ShapeCasts S8192x1024)
    (h5 : S8192x1024.ShapeCasts S4x2048x1024) :
    shapeCast S4x2048x1024 (Cert.Spec.oln (shapeCast S8192x1024 (transpose S4x2048x16x64 [0, 2, 1, 3] C h1) h2)
        (transpose S1024x1024 [1, 0] W h3) (shapeCast S8192x1024 x h4) g be) h5
      = fun j => Cert.Spec.olnHAt C W x g be (j 0) (j 1) (j 2) := by
  funext j
  obtain ⟨b, s, e, rfl⟩ : ∃ (b : Fin 4) (s : Fin 2048) (e : Fin 1024), j = ix3 b s e := ⟨j 0, j 1, j 2, eq_ix3 j⟩
  refine (unrows_apply _ h5 b s e).trans ?_
  show Cert.Spec.olnAt _ _ _ g be (flatRow b s) e = Cert.Spec.olnHAt C W x g be b s e
  unfold Cert.Spec.olnAt Cert.Spec.olnHAt
  refine congrArg (fun y => Cert.Spec.lnRow y (fun e' => g (ix1 e')) (fun e' => be (ix1 e')) e) (funext fun e' => ?_)
  refine congrArg₂ (· + ·) ?_ (rows_apply x h4 b s e')
  exact Finset.sum_congr rfl fun k _ =>
    congrArg₂ (· * ·) (merged_apply C h1 h2 b s k) (transpose_ix2_apply W h3 k e')

end Cert.KernelIdeal.Gen

end
-- ==== Proof.KValue.lean ====
/-
  The idealized kernel's result as a function of its arguments.

  Reading the boundaries of @main back to the arguments leaves the result as layout operations around the five
  regions' output arrays. Each region's output array is a whole-array function of what the region reads: the three
  projections are rows times a transposed weight, the fourth region is attention of its three per-head inputs and
  the mask, the last is the output projection plus residual under a LayerNorm. Composed, and with the flattening,
  head-splitting and head-merging casts and transposes read index by index, the result is the specification's layer
  `Cert.Spec.out` of the ten arguments.
-/
import proofs.«118998_j18983755448471_1_alg».proof.Proof.KFold
import proofs.«118998_j18983755448471_1_alg».proof.Proof.Lin0
import proofs.«118998_j18983755448471_1_alg».proof.Proof.Lin1
import proofs.«118998_j18983755448471_1_alg».proof.Proof.Lin2
import proofs.«118998_j18983755448471_1_alg».proof.Proof.Attn
import proofs.«118998_j18983755448471_1_alg».proof.Proof.OLn
import proofs.«118998_j18983755448471_1_alg».proof.Proof.GlueProj
import proofs.«118998_j18983755448471_1_alg».proof.Proof.GlueOLn
import proofs.«118998_j18983755448471_1_alg».proof.Proof.Spec

set_option maxRecDepth 16384

noncomputable section

namespace Cert.KernelIdeal.Gen

open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- The three projection regions' output arrays: the flattened activations times the transposed weights. -/
theorem proj0_eq : (dat0 (V1 m ρ) c).arrAt 2 cfg0.N = Cert.Spec.linear
      (shapeCast S8192x1024 (m ((c : Thread nD τ).loc main_arg0)) shapeCasts_S4x2048x1024_S8192x1024)
      (transpose S1024x1024 [1, 0] (m ((c : Thread nD τ).loc main_arg4)) transposes_S1024x1024_S1024x1024_1_0) :=
  (lin0_final (V1 m ρ) c).trans (by rw [V1_v0, V1_v3])
theorem proj1_eq : (dat1 (V3 m ρ) c).arrAt 2 cfg1.N = Cert.Spec.linear
      (shapeCast S8192x1024 (m ((c : Thread nD τ).loc main_arg1)) shapeCasts_S4x2048x1024_S8192x1024)
      (transpose S1024x1024 [1, 0] (m ((c : Thread nD τ).loc main_arg5)) transposes_S1024x1024_S1024x1024_1_0) :=
  (lin1_final (V3 m ρ) c).trans (by rw [V3_v1, V3_v7])
theorem proj2_eq : (dat2 (V5 m ρ) c).arrAt 2 cfg2.N = Cert.Spec.linear
      (shapeCast S8192x1024 (m ((c : Thread nD τ).loc main_arg2)) shapeCasts_S4x2048x1024_S8192x1024)
      (transpose S1024x1024 [1, 0] (m ((c : Thread nD τ).loc main_arg6)) transposes_S1024x1024_S1024x1024_1_0) :=
  (lin2_final (V5 m ρ) c).trans (by rw [V5_v2, V5_v11])

/-- The attention region's output array: attention of the three projections split into heads. -/
theorem ctx_eq : (dat3 (V7 m ρ) c).arrAt 4 cfg3.N = Cert.Spec.attn
      (Cert.Spec.projH (m ((c : Thread nD τ).loc main_arg0)) (m ((c : Thread nD τ).loc main_arg4)))
      (Cert.Spec.projH (m ((c : Thread nD τ).loc main_arg1)) (m ((c : Thread nD τ).loc main_arg5)))
      (Cert.Spec.projH (m ((c : Thread nD τ).loc main_arg2)) (m ((c : Thread nD τ).loc main_arg6)))
      (m ((c : Thread nD τ).loc main_arg3)) :=
  (attn_final (V7 m ρ) c).trans (by
    rw [V7_v6, V7_v10, V7_v14, V7_arg3, proj0_eq, proj1_eq, proj2_eq, projH_of_linear, projH_of_linear, projH_of_linear])

/-- The result buffer's final contents are the specification's layer of the arguments. -/
theorem result_eq : W11 m ρ c (Proc.devRef .tc main_v21)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) :=
  (W11_v21 m ρ c).trans (by
    rw [oln_final (V9 m ρ) c, V9_v17, V9_v18, V9_v19, V9_arg8, V9_arg9, ctx_eq, olnH_of_oln]
    rfl)

end Cert.KernelIdeal.Gen

end
-- ==== Proof.RefProj.lean ====
/-
  The reference's three projections are the specification's.

  Each is a contraction of the activations [4, 2048, 1024] with a weight stored [out, in] over the feature axis, cast
  to [4, 2048, 16, 64] and transposed to [4, 16, 2048, 64]. Entry (b, h, s, d) of the result is therefore entry
  (b, s, h·64 + d) of the contraction: in row-major order (b, s, h, d) of [4, 2048, 16, 64] and (b, s, h·64 + d) of
  [4, 2048, 1024] sit at the same position ((b·2048 + s)·16 + h)·64 + d. That entry is the sum over k of
  x(b, s, k) · W(h·64 + d, k).
-/
import proofs.«118998_j18983755448471_1_alg».proof.Proof.Gen.ReferenceIdeal.Read
import proofs.«118998_j18983755448471_1_alg».proof.Proof.Spec

noncomputable section

namespace Cert.ReferenceIdeal.RefValue

open Cert.ReferenceIdeal Cert.ReferenceIdeal.Gen Idealize.ShloMosaic Idealize.ShloMosaic.TcCoe Idealize.SL.Sem
open Cert.ReferenceIdeal.Read Idealize.ShloMosaic.ValueIdx

theorem v2_eq (x : (⟨S4x2048x1024, .f32⟩ : BufTy).Contents (Elt Ideal)) (W : (⟨S1024x1024, .f32⟩ : BufTy).Contents (Elt Ideal)) :
    val_main_v2 (F := Ideal) x W = Cert.Spec.projH x W := by
  funext j
  obtain ⟨b, h, s, d, rfl⟩ : ∃ (b : Fin 4) (h : Fin 16) (s : Fin 2048) (d : Fin 64), j = ix4 b h s d :=
    ⟨j 0, j 1, j 2, j 3, eq_ix4 j⟩
  rw [val_main_v2_apply, val_main_v1_apply, val_main_v0_apply]
  show _ = Cert.Spec.projHAt x W b h s d
  unfold Cert.Spec.projHAt
  have hb := b.isLt; have hh := h.isLt; have hs := s.isLt; have hd := d.isLt
  refine Finset.sum_congr rfl fun k _ => ?_
  refine congrArg₂ (fun p q : EReal => p * q) (congrArg x ?_) (congrArg W ?_)
  · funext a
    refine Fin.ext ?_
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => rfl
  · funext a
    refine Fin.ext ?_
    match a with
    | ⟨0, _⟩ => show (((b.val * 2048 + s.val) * 16 + h.val) * 64 + d.val) % 1024 = h.val * 64 + d.val; omega
    | ⟨1, _⟩ => rfl

theorem v5_eq (x : (⟨S4x2048x1024, .f32⟩ : BufTy).Contents (Elt Ideal)) (W : (⟨S1024x1024, .f32⟩ : BufTy).Contents (Elt Ideal)) :
    val_main_v5 (F := Ideal) x W = Cert.Spec.projH x W := by
  funext j
  obtain ⟨b, h, s, d, rfl⟩ : ∃ (b : Fin 4) (h : Fin 16) (s : Fin 2048) (d : Fin 64), j = ix4 b h s d :=
    ⟨j 0, j 1, j 2, j 3, eq_ix4 j⟩
  rw [val_main_v5_apply, val_main_v4_apply, val_main_v3_apply]
  show _ = Cert.Spec.projHAt x W b h s d
  unfold Cert.Spec.projHAt
  have hb := b.isLt; have hh := h.isLt; have hs := s.isLt; have hd := d.isLt
  refine Finset.sum_congr rfl fun k _ => ?_
  refine congrArg₂ (fun p q : EReal => p * q) (congrArg x ?_) (congrArg W ?_)
  · funext a
    refine Fin.ext ?_
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => rfl
  · funext a
    refine Fin.ext ?_
    match a with
    | ⟨0, _⟩ => show (((b.val * 2048 + s.val) * 16 + h.val) * 64 + d.val) % 1024 = h.val * 64 + d.val; omega
    | ⟨1, _⟩ => rfl

theorem v8_eq (x : (⟨S4x2048x1024, .f32⟩ : BufTy).Contents (Elt Ideal)) (W : (⟨S1024x1024, .f32⟩ : BufTy).Contents (Elt Ideal)) :
    val_main_v8 (F := Ideal) x W = Cert.Spec.projH x W := by
  funext j
  obtain ⟨b, h, s, d, rfl⟩ : ∃ (b : Fin 4) (h : Fin 16) (s : Fin 2048) (d : Fin 64), j = ix4 b h s d :=
    ⟨j 0, j 1, j 2, j 3, eq_ix4 j⟩
  rw [val_main_v8_apply, val_main_v7_apply, val_main_v6_apply]
  show _ = Cert.Spec.projHAt x W b h s d
  unfold Cert.Spec.projHAt
  have hb := b.isLt; have hh := h.isLt; have hs := s.isLt; have hd := d.isLt
  refine Finset.sum_congr rfl fun k _ => ?_
  refine congrArg₂ (fun p q : EReal => p * q) (congrArg x ?_) (congrArg W ?_)
  · funext a
    refine Fin.ext ?_
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => rfl
  · funext a
    refine Fin.ext ?_
    match a with
    | ⟨0, _⟩ => show (((b.val * 2048 + s.val) * 16 + h.val) * 64 + d.val) % 1024 = h.val * 64 + d.val; omega
    | ⟨1, _⟩ => rfl

end Cert.ReferenceIdeal.RefValue

end
-- ==== Proof.RefAttnConsts.lean ====
/-
  The three float constants the reference's attention spells, as the extended reals their bit patterns denote,
  and the one numerical law the comparison with the specification needs: dividing by 8 is multiplying by the
  exact binary 1/8, on every extended real (at ±∞ and at the junk value too, since 8 is a nonzero real).
-/
import Idealize.ShloMosaic.PureOps.Ideal
import Idealize.ShloMosaic.PureOps.Ideal.Laws

noncomputable section

namespace Cert.ReferenceIdeal.RefValue

open Idealize.ShloMosaic

/-- The pattern 0x41000000 (sign 0, exponent 130, fraction 0) denotes 2³ = 8. -/
theorem ofBits_eight : Ideal.ofBits .f32 0x41000000#32 = ((8 : ℝ) : EReal) := by
  simp [Ideal.ofBits, Ideal.ieee, -EReal.coe_mul]; norm_num

/-- The pattern 0x3E000000 (sign 0, exponent 124, fraction 0) denotes 2⁻³ = 1/8. -/
theorem ofBits_eighth : Ideal.ofBits .f32 0x3E000000#32 = ((1 / 8 : ℝ) : EReal) := by
  simp [Ideal.ofBits, Ideal.ieee, -EReal.coe_mul]; norm_num

/-- The pattern 0xFF800000 (sign 1, exponent all ones, fraction 0) denotes −∞, the least extended real. -/
theorem ofBits_negInf : Ideal.ofBits .f32 0xFF800000#32 = (⊥ : EReal) := by
  simp [Ideal.ofBits, Ideal.ieee]

/-- x / 8 = x · (1/8) for every extended real x: the reference scales the scores by the quotient, the
    specification by the product. -/
theorem div_eight (x : EReal) :
    Ideal.div x (Ideal.ofBits .f32 0x41000000#32) = x * Ideal.ofBits .f32 0x3E000000#32 := by
  rw [ofBits_eight, ofBits_eighth]
  exact Ideal.div_coe (by norm_num) x

end Cert.ReferenceIdeal.RefValue

end
-- ==== Proof.RefAttnScore.lean ====
/-
  The reference's masked and scaled scores, read at an index.

  For batch b, head h, query i and key j the reference computes  (∑_d Q[b,h,i,d] · K[b,h,j,d]) / 8,  broadcasts the
  mask [b, i, j] over the heads, compares it with 1 and puts −10⁹ where they are equal. The specification's score is the
  same selection with the product by the exact 1/8 in place of the quotient by 8; the two agree on every extended real.
-/
import proofs.«118998_j18983755448471_1_alg».proof.Proof.Gen.ReferenceIdeal.Read
import proofs.«118998_j18983755448471_1_alg».proof.Proof.Spec
import proofs.«118998_j18983755448471_1_alg».proof.Proof.RefAttnConsts

noncomputable section

namespace Cert.ReferenceIdeal.RefValue

open Cert.ReferenceIdeal Cert.ReferenceIdeal.Gen Idealize.ShloMosaic Idealize.ShloMosaic.TcCoe Idealize.SL.Sem Cert.ReferenceIdeal.Read
open Idealize.ShloMosaic.ValueIdx

/-- The mask is read at (b, i, j): the broadcast over heads forgets h. -/
theorem maskIdx_eq (b : Fin 4) (h : Fin 16) (i j : Fin 2048) :
    idx_main_v12 (idx_main_call0_v0 (ix4 b h i j)) = ix3 b i j :=
  funext fun a => by match a with | ⟨0, _⟩ => rfl | ⟨1, _⟩ => rfl | ⟨2, _⟩ => rfl

/-- Term d of the score's sum reads the queries at (b, h, i, d) … -/
theorem qIdx_eq (b : Fin 4) (h : Fin 16) (i j : Fin 2048) (k : Fin 64) :
    lidx_main_v9 (ix4 b h i j) k = ix4 b h i k :=
  funext fun a => by match a with | ⟨0, _⟩ => rfl | ⟨1, _⟩ => rfl | ⟨2, _⟩ => rfl | ⟨3, _⟩ => rfl

/-- … and the keys at (b, h, j, d). -/
theorem kIdx_eq (b : Fin 4) (h : Fin 16) (i j : Fin 2048) (k : Fin 64) :
    ridx_main_v9 (ix4 b h i j) k = ix4 b h j k :=
  funext fun a => by match a with | ⟨0, _⟩ => rfl | ⟨1, _⟩ => rfl | ⟨2, _⟩ => rfl | ⟨3, _⟩ => rfl

/-- The selected score at (b, h, i, j) is the specification's score of the projected queries and keys. -/
theorem v15_at (x0 x1 : (⟨S4x2048x1024, .f32⟩ : BufTy).Contents (Elt Ideal)) (x3 : (⟨S4x2048x2048, .i32⟩ : BufTy).Contents (Elt Ideal)) (x4 x5 : (⟨S1024x1024, .f32⟩ : BufTy).Contents (Elt Ideal)) (b : Fin 4) (h : Fin 16) (i j : Fin 2048) :
    val_main_v15 (F := Ideal) x0 x1 x3 x4 x5 (ix4 b h i j)
      = Cert.Spec.scoreAt (val_main_v2 (F := Ideal) x0 x4) (val_main_v5 (F := Ideal) x1 x5) x3 b h i j := by
  -- read the selection, the comparison, the two broadcasts, the quotient and the contraction at the index
  rw [val_main_v15_apply, val_main_call0_v0_apply, val_main_v14_apply, val_main_v12_apply, val_main_v13_apply,
    val_main_c_apply, val_main_call0_v1_apply, val_main_cst_0_apply, val_main_v11_apply, val_main_v9_apply,
    val_main_v10_apply, val_main_cst_apply]
  -- the projections are whatever they are: the score is a function of them
  generalize val_main_v2 (F := Ideal) x0 x4 = Q
  generalize val_main_v5 (F := Ideal) x1 x5 = K
  unfold Cert.Spec.scoreAt
  rw [maskIdx_eq]
  -- s / 8 = s · (1/8)
  simp only [qIdx_eq, kIdx_eq, Ideal.hostDivf_def, Ideal.ofBits_def, div_eight]

end Cert.ReferenceIdeal.RefValue

end
-- ==== Proof.RefAttnMax.lean ====
/-
  The reference's row maximum, read at an index.

  For batch b, head h and query i the reference folds the maximum over the 2048 keys' scores from −∞, and then takes the
  maximum of that with −∞ once more. A reduction over one axis with a commutative and associative body is the fold over
  that axis's coordinates of the operand at the reduced index with the coordinate put back; here the index put back is
  (b, h, i, j), so the fold is the specification's maximum of the row  j ↦ score[b, h, i, j].  And max(−∞, m) = m.
-/
import proofs.«118998_j18983755448471_1_alg».proof.Proof.Gen.ReferenceIdeal.Read
import proofs.«118998_j18983755448471_1_alg».proof.Proof.Spec
import proofs.«118998_j18983755448471_1_alg».proof.Proof.RefAttnConsts

noncomputable section

namespace Cert.ReferenceIdeal.RefValue

open Cert.ReferenceIdeal Cert.ReferenceIdeal.Gen Idealize.ShloMosaic Idealize.ShloMosaic.TcCoe Idealize.SL.Sem Cert.ReferenceIdeal.Read
open Idealize.ShloMosaic.ValueIdx

/-- The reduced index (b, h, i) with key j put back on the last axis is (b, h, i, j). -/
theorem lift_key (hR : S4x16x2048x2048.Reduces [3] S4x16x2048) (b : Fin 4) (h : Fin 16) (i : Fin 2048)
    (k : Fin (S4x16x2048x2048.size 3)) : hR.lift (ix3 b h i) k = ix4 b h i (⟨k.val, k.isLt⟩ : Fin 2048) := by
  funext c; apply Fin.ext
  fin_cases c <;> rfl

/-- The reduction with a maximum body over the keys, from the −∞ constant, at (b, h, i): the maximum of the row of y. -/
theorem hostMax_row (y : (⟨S4x16x2048x2048, .f32⟩ : BufTy).Contents (Elt Ideal))
    (h' : S4x16x2048x2048.ReducesTo [3] S4x16x2048) (hu : 0 < S_.numel) (b : Fin 4) (h : Fin 16) (i : Fin 2048) :
    Host.reduce (FloatOps.maximumf (F := Ideal) (φ := .f32)) y (val_main_cst_1 (F := Ideal)) h' hu (ix3 b h i)
      = Cert.Spec.rowMax (fun j => y (ix4 b h i j)) := by
  have hR : S4x16x2048x2048.Reduces [3] S4x16x2048 := by decide
  rw [Host.reduce_eq_fold_single (FloatOps.maximumf (F := Ideal) (φ := .f32)) y _ h' hR hu]
  unfold Cert.Spec.rowMax
  -- the folded function is the row of y
  have hf : (y ∘ hR.lift (ix3 b h i)) = fun j : Fin 2048 => y (ix4 b h i j) :=
    funext fun k => congrArg y (lift_key hR b h i k)
  exact congrArg (fun f => Finset.fold max (Ideal.ofBits .f32 0xFF800000#32) f (Finset.univ : Finset (Fin 2048))) hf

/-- The maximum the reference subtracts, at (b, h, i): the maximum of the row of selected scores. -/
theorem v18_at (x0 x1 : (⟨S4x2048x1024, .f32⟩ : BufTy).Contents (Elt Ideal)) (x3 : (⟨S4x2048x2048, .i32⟩ : BufTy).Contents (Elt Ideal)) (x4 x5 : (⟨S1024x1024, .f32⟩ : BufTy).Contents (Elt Ideal)) (b : Fin 4) (h : Fin 16) (i : Fin 2048) :
    val_main_v18 (F := Ideal) x0 x1 x3 x4 x5 (ix3 b h i)
      = Cert.Spec.rowMax (fun j => val_main_v15 (F := Ideal) x0 x1 x3 x4 x5 (ix4 b h i j)) := by
  rw [val_main_v18_apply, val_main_v17_apply, val_main_cst_2_apply]
  unfold val_main_v16
  -- the scores are whatever they are: the maximum is a function of them
  generalize val_main_v15 (F := Ideal) x0 x1 x3 x4 x5 = y
  rw [hostMax_row y _ _ b h i]
  -- max(−∞, m) = m
  rw [Ideal.maximumf_def, Ideal.ofBits_def, ofBits_negInf, max_bot_left]

end Cert.ReferenceIdeal.RefValue

end
-- ==== Proof.RefAttnSoftmax.lean ====
/-
  The reference's softmax entry, read at an index.

  Write s for the row  j ↦ score[b, h, i, j]  of selected scores and m for its maximum. The reference subtracts m
  (broadcast back along the keys), exponentiates, sums the row from the constant 0, broadcasts the sum back and divides:
  entry j is  exp (s j − m) / ∑_k exp (s k − m),  the specification's softmax of the row s at j.
-/
import proofs.«118998_j18983755448471_1_alg».proof.Proof.Gen.ReferenceIdeal.Read
import proofs.«118998_j18983755448471_1_alg».proof.Proof.Spec
import proofs.«118998_j18983755448471_1_alg».proof.Proof.RefAttnMax

noncomputable section

namespace Cert.ReferenceIdeal.RefValue

open Cert.ReferenceIdeal Cert.ReferenceIdeal.Gen Idealize.ShloMosaic Idealize.ShloMosaic.TcCoe Idealize.SL.Sem Cert.ReferenceIdeal.Read
open Idealize.ShloMosaic.ValueIdx

/-- The maximum broadcast back along the keys is read at (b, h, i). -/
theorem maxIdx_eq (b : Fin 4) (h : Fin 16) (i j : Fin 2048) :
    idx_main_v19 (idx_main_v20 (ix4 b h i j)) = ix3 b h i :=
  funext fun a => by match a with | ⟨0, _⟩ => rfl | ⟨1, _⟩ => rfl | ⟨2, _⟩ => rfl

/-- The row sum broadcast back along the keys is read at (b, h, i). -/
theorem sumIdx_eq (b : Fin 4) (h : Fin 16) (i j : Fin 2048) :
    idx_main_v24 (idx_main_v25 (ix4 b h i j)) = ix3 b h i :=
  funext fun a => by match a with | ⟨0, _⟩ => rfl | ⟨1, _⟩ => rfl | ⟨2, _⟩ => rfl

/-- Term k of the row sum at (b, h, i) reads the exponentials at (b, h, i, k). -/
theorem sumTerm_eq (b : Fin 4) (h : Fin 16) (i k : Fin 2048) :
    idx_main_v23 (ix3 b h i) k = ix4 b h i k :=
  funext fun a => by match a with | ⟨0, _⟩ => rfl | ⟨1, _⟩ => rfl | ⟨2, _⟩ => rfl | ⟨3, _⟩ => rfl

/-- The exponential at (b, h, i, j): exp (s j − m). -/
theorem v22_at (x0 x1 : (⟨S4x2048x1024, .f32⟩ : BufTy).Contents (Elt Ideal)) (x3 : (⟨S4x2048x2048, .i32⟩ : BufTy).Contents (Elt Ideal)) (x4 x5 : (⟨S1024x1024, .f32⟩ : BufTy).Contents (Elt Ideal)) (b : Fin 4) (h : Fin 16) (i j : Fin 2048) :
    val_main_v22 (F := Ideal) x0 x1 x3 x4 x5 (ix4 b h i j)
      = Ideal.exp (val_main_v15 (F := Ideal) x0 x1 x3 x4 x5 (ix4 b h i j)
          - Cert.Spec.rowMax (fun j' => val_main_v15 (F := Ideal) x0 x1 x3 x4 x5 (ix4 b h i j'))) := by
  rw [val_main_v22_apply, val_main_v21_apply, val_main_v20_apply, val_main_v19_apply, maxIdx_eq, v18_at,
    Ideal.hostUnary_exp_def, Ideal.subf_def]

/-- The row sum at (b, h, i): ∑_k exp (s k − m); the initial value is the constant 0. -/
theorem v23_at (x0 x1 : (⟨S4x2048x1024, .f32⟩ : BufTy).Contents (Elt Ideal)) (x3 : (⟨S4x2048x2048, .i32⟩ : BufTy).Contents (Elt Ideal)) (x4 x5 : (⟨S1024x1024, .f32⟩ : BufTy).Contents (Elt Ideal)) (b : Fin 4) (h : Fin 16) (i : Fin 2048) :
    val_main_v23 (F := Ideal) x0 x1 x3 x4 x5 (ix3 b h i)
      = ∑ k : Fin 2048, Ideal.exp (val_main_v15 (F := Ideal) x0 x1 x3 x4 x5 (ix4 b h i k)
          - Cert.Spec.rowMax (fun j' => val_main_v15 (F := Ideal) x0 x1 x3 x4 x5 (ix4 b h i j'))) := by
  rw [val_main_v23_apply, val_main_cst_3_apply, Ideal.ofBits_def, Ideal.ofBits_zero_f32, zero_add]
  refine Finset.sum_congr rfl fun k _ => ?_
  rw [sumTerm_eq, v22_at]

/-- The quotient at (b, h, i, j): the softmax of the row s at j. -/
theorem v26_at (x0 x1 : (⟨S4x2048x1024, .f32⟩ : BufTy).Contents (Elt Ideal)) (x3 : (⟨S4x2048x2048, .i32⟩ : BufTy).Contents (Elt Ideal)) (x4 x5 : (⟨S1024x1024, .f32⟩ : BufTy).Contents (Elt Ideal)) (b : Fin 4) (h : Fin 16) (i j : Fin 2048) :
    val_main_v26 (F := Ideal) x0 x1 x3 x4 x5 (ix4 b h i j)
      = Cert.Spec.softmaxRow (fun j' => val_main_v15 (F := Ideal) x0 x1 x3 x4 x5 (ix4 b h i j')) j := by
  rw [val_main_v26_apply, val_main_v25_apply, val_main_v24_apply, sumIdx_eq, v23_at, v22_at, Ideal.hostDivf_def]
  -- the scores are whatever they are: both sides are the same function of the row
  generalize val_main_v15 (F := Ideal) x0 x1 x3 x4 x5 = y
  rfl

end Cert.ReferenceIdeal.RefValue

end
-- ==== Proof.RefAttn.lean ====
/-
  The reference's attention output is the specification's attention of the three projections.

  At (b, h, i, d) the last contraction is  ∑_j P[b, h, i, j] · V[b, h, j, d]  with P the softmax entries; the row of
  selected scores is the specification's row of scores of the projected queries and keys, so P[b, h, i, ·] is the
  specification's softmax row and the sum is the specification's attention at (b, h, i, d).
-/
import proofs.«118998_j18983755448471_1_alg».proof.Proof.Gen.ReferenceIdeal.Read
import proofs.«118998_j18983755448471_1_alg».proof.Proof.Spec
import proofs.«118998_j18983755448471_1_alg».proof.Proof.RefAttnScore
import proofs.«118998_j18983755448471_1_alg».proof.Proof.RefAttnSoftmax

noncomputable section

namespace Cert.ReferenceIdeal.RefValue

open Cert.ReferenceIdeal Cert.ReferenceIdeal.Gen Idealize.ShloMosaic Idealize.ShloMosaic.TcCoe Idealize.SL.Sem Cert.ReferenceIdeal.Read
open Idealize.ShloMosaic.ValueIdx

/-- Term j of the contraction at (b, h, i, d) reads the softmax entries at (b, h, i, j) … -/
theorem pIdx_eq (b : Fin 4) (h : Fin 16) (i : Fin 2048) (d : Fin 64) (k : Fin 2048) :
    lidx_main_v27 (ix4 b h i d) k = ix4 b h i k :=
  funext fun a => by match a with | ⟨0, _⟩ => rfl | ⟨1, _⟩ => rfl | ⟨2, _⟩ => rfl | ⟨3, _⟩ => rfl

/-- … and the values at (b, h, j, d). -/
theorem vIdx_eq (b : Fin 4) (h : Fin 16) (i : Fin 2048) (d : Fin 64) (k : Fin 2048) :
    ridx_main_v27 (ix4 b h i d) k = ix4 b h k d :=
  funext fun a => by match a with | ⟨0, _⟩ => rfl | ⟨1, _⟩ => rfl | ⟨2, _⟩ => rfl | ⟨3, _⟩ => rfl

/-- The attention output at (b, h, i, d). -/
theorem v27_at (x0 x1 x2 : (⟨S4x2048x1024, .f32⟩ : BufTy).Contents (Elt Ideal)) (x3 : (⟨S4x2048x2048, .i32⟩ : BufTy).Contents (Elt Ideal)) (x4 x5 x6 : (⟨S1024x1024, .f32⟩ : BufTy).Contents (Elt Ideal)) (b : Fin 4) (h : Fin 16) (i : Fin 2048) (d : Fin 64) :
    val_main_v27 (F := Ideal) x0 x1 x2 x3 x4 x5 x6 (ix4 b h i d)
      = Cert.Spec.attnAt (val_main_v2 (F := Ideal) x0 x4) (val_main_v5 (F := Ideal) x1 x5) (val_main_v8 (F := Ideal) x2 x6) x3 b h i d := by
  rw [val_main_v27_apply]
  unfold Cert.Spec.attnAt
  -- the row of selected scores is the specification's row of scores
  have hs : (fun j' => val_main_v15 (F := Ideal) x0 x1 x3 x4 x5 (ix4 b h i j'))
      = Cert.Spec.scoreAt (val_main_v2 (F := Ideal) x0 x4) (val_main_v5 (F := Ideal) x1 x5) x3 b h i :=
    funext fun j' => v15_at x0 x1 x3 x4 x5 b h i j'
  refine Finset.sum_congr rfl fun k _ => ?_
  rw [pIdx_eq, vIdx_eq, v26_at, hs]

/-- The reference's attention output, as an array, is the specification's attention of the projected queries, keys and values
    under the mask. -/
theorem v27_eq (x0 x1 x2 : (⟨S4x2048x1024, .f32⟩ : BufTy).Contents (Elt Ideal)) (x3 : (⟨S4x2048x2048, .i32⟩ : BufTy).Contents (Elt Ideal)) (x4 x5 x6 : (⟨S1024x1024, .f32⟩ : BufTy).Contents (Elt Ideal)) :
    val_main_v27 (F := Ideal) x0 x1 x2 x3 x4 x5 x6 = Cert.Spec.attn (val_main_v2 (F := Ideal) x0 x4) (val_main_v5 (F := Ideal) x1 x5) (val_main_v8 (F := Ideal) x2 x6) x3 :=
  funext fun x => (congrArg (val_main_v27 (F := Ideal) x0 x1 x2 x3 x4 x5 x6) (eq_ix4 x)).trans
    (v27_at x0 x1 x2 x3 x4 x5 x6 (x 0) (x 1) (x 2) (x 3))

end Cert.ReferenceIdeal.RefValue

end
-- ==== Proof.RefOutRow.lean ====
/-
  The reference's output projection plus residual, read at one entry on the extended reals.

  The reference transposes its attention result [4, 16, 2048, 64] to [4, 2048, 16, 64] and reshapes it to
  [4, 2048, 1024]: feature k of position s comes from head k / 64, head feature k % 64, because in row-major order
  the position of (b, s, k) in [4, 2048, 1024] is that of (b, s, k / 64, k % 64) in [4, 2048, 16, 64]. It then
  contracts the features against the output weight, stored [out, in], and adds the layer's input. So entry
  (b, s, e) of that sum is (∑ₖ merged (b, s, k) · W (e, k)) + x (b, s, e): the row the specification's
  LayerNorm is applied to. The attention result itself stays a name here.
-/
import proofs.«118998_j18983755448471_1_alg».proof.Proof.Gen.ReferenceIdeal.Read
import proofs.«118998_j18983755448471_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem Cert.ReferenceIdeal.Read
open Idealize.ShloMosaic.ValueIdx

variable (x0 x1 x2 : (⟨S4x2048x1024, .f32⟩ : BufTy).Contents (Elt Ideal)) (x3 : (⟨S4x2048x2048, .i32⟩ : BufTy).Contents (Elt Ideal))
  (x4 x5 x6 x7 : (⟨S1024x1024, .f32⟩ : BufTy).Contents (Elt Ideal))

/-- The transposed and reshaped attention result read where the output projection reads it, at position (b, s)
    and feature k, is the attention result at head k / 64, position s, head feature k % 64. -/
theorem merged_at (b : Fin 4) (s : Fin 2048) (e k : Fin 1024) :
    val_main_v29 (F := Ideal) x0 x1 x2 x3 x4 x5 x6 (lidx_main_v30 (ix3 b s e) k)
      = Cert.Spec.mergeAt (val_main_v27 (F := Ideal) x0 x1 x2 x3 x4 x5 x6) b s k := by
  rw [val_main_v29_apply, val_main_v28_apply]
  unfold Cert.Spec.mergeAt
  refine congrArg (val_main_v27 (F := Ideal) x0 x1 x2 x3 x4 x5 x6) (funext fun a => Fin.ext ?_)
  have hb : b.val < 4 := b.isLt
  have hs : s.val < 2048 := s.isLt
  have hk : k.val < 1024 := k.isLt
  match a with
  | ⟨0, _⟩ => show ((b.val * 2048 + s.val) * 1024 + k.val) / 2097152 = b.val; omega
  | ⟨1, _⟩ => show ((b.val * 2048 + s.val) * 1024 + k.val) / 64 % 16 = k.val / 64; omega
  | ⟨2, _⟩ => show ((b.val * 2048 + s.val) * 1024 + k.val) / 1024 % 2048 = s.val; omega
  | ⟨3, _⟩ => show ((b.val * 2048 + s.val) * 1024 + k.val) % 64 = k.val % 64; omega

/-- Entry (b, s, e) of the output projection plus the residual: the merged heads at (b, s) contracted against row
    e of the weight, plus the input at (b, s, e). -/
theorem v31_at (b : Fin 4) (s : Fin 2048) (e : Fin 1024) :
    val_main_v31 (F := Ideal) x0 x1 x2 x3 x4 x5 x6 x7 (ix3 b s e)
      = (∑ k : Fin 1024, Cert.Spec.mergeAt (val_main_v27 (F := Ideal) x0 x1 x2 x3 x4 x5 x6) b s k * x7 (ix2 e k)) + x0 (ix3 b s e) := by
  rw [val_main_v31_apply, val_main_v30_apply, Ideal.addf_def]
  refine congrArg (fun t : EReal => t + x0 (ix3 b s e)) (Finset.sum_congr rfl fun k _ => ?_)
  refine congrArg₂ (fun p q : EReal => p * q) (merged_at x0 x1 x2 x3 x4 x5 x6 b s e k) (congrArg x7 (funext fun a => Fin.ext ?_))
  match a with
  | ⟨0, _⟩ => rfl
  | ⟨1, _⟩ => rfl

end Cert.ReferenceIdeal.RefValue

end
-- ==== Proof.RefOutNorm.lean ====
/-
  The reference's LayerNorm, read at one entry on the extended reals as a function of the row it normalises.

  After the output projection and the residual the reference holds an array y [4, 2048, 1024]. Per position (b, s)
  it sums the 1024 features from the zero word and divides by 1024 (the mean μ, kept as a [4, 2048, 1] column and
  repeated along the features), subtracts μ — twice, the two differences are the same array —, squares, takes the
  mean again (the variance), adds ε, takes the reciprocal square root, multiplies the centred row by it, by the
  scale and adds the shift, scale and shift repeated over batch and position. At (b, s, e) that is

      (y e − μ) · rsqrt (mean ((y − μ)²) + ε) · γ e + β e,     y the row at (b, s),

  the specification's row normalisation. A column [4, 2048, 1] repeated along the features reads, at (b, s, e),
  the column at (b, s, 0); a vector [1024] repeated over batch and position reads the vector at e. The array y
  stays a name here.
-/
import proofs.«118998_j18983755448471_1_alg».proof.Proof.Gen.ReferenceIdeal.Read
import proofs.«118998_j18983755448471_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem Cert.ReferenceIdeal.Read
open Idealize.ShloMosaic.ValueIdx

variable (x0 x1 x2 : (⟨S4x2048x1024, .f32⟩ : BufTy).Contents (Elt Ideal)) (x3 : (⟨S4x2048x2048, .i32⟩ : BufTy).Contents (Elt Ideal))
  (x4 x5 x6 x7 : (⟨S1024x1024, .f32⟩ : BufTy).Contents (Elt Ideal))

variable (x8 x9 : (⟨S1024, .f32⟩ : BufTy).Contents (Elt Ideal))

/-- The row at position (b, s) of the array the LayerNorm is applied to. -/
abbrev yrow (b : Fin 4) (s : Fin 2048) : Fin 1024 → EReal :=
  fun e' => val_main_v31 (F := Ideal) x0 x1 x2 x3 x4 x5 x6 x7 (ix3 b s e')

/-! ## Where the repeated columns and vectors are read -/

/-- A [4, 2048, 1] column repeated along the features is read at (b, s, 0). -/
theorem colIdx_eq (b : Fin 4) (s : Fin 2048) (e : Fin 1024) :
    idx_main_v36 (ix3 b s e) = ix3 b s (0 : Fin 1) :=
  funext fun a => Fin.ext (by
    match a with
    | ⟨0, _⟩ => rfl
    | ⟨1, _⟩ => rfl
    | ⟨2, _⟩ => rfl)

/-- A per-position sum kept as a column is read, at (b, s, u), at the position (b, s), and feature k of that
    position is the entry (b, s, k). -/
theorem featSumIdx_eq (b : Fin 4) (s : Fin 2048) (u : Fin 1) (k : Fin 1024) :
    idx_main_v32 (idx_main_v33 (ix3 b s u)) k = ix3 b s k :=
  funext fun a => Fin.ext (by
    match a with
    | ⟨0, _⟩ => rfl
    | ⟨1, _⟩ => rfl
    | ⟨2, _⟩ => rfl)

/-- A [1024] vector repeated over batch and position is read, at (b, s, e), at e. -/
theorem vecIdx_eq (b : Fin 4) (s : Fin 2048) (e : Fin 1024) :
    idx_main_v50 (idx_main_v51 (ix3 b s e)) = ix1 e :=
  funext fun a => Fin.ext (by
    match a with
    | ⟨0, _⟩ => rfl)

/-! ## The stages at an entry -/

/-- The mean column at (b, s, u): the sum of the row from zero, divided by 1024. -/
theorem v35_at (b : Fin 4) (s : Fin 2048) (u : Fin 1) :
    val_main_v35 (F := Ideal) x0 x1 x2 x3 x4 x5 x6 x7 (ix3 b s u) = Cert.Spec.mean (yrow x0 x1 x2 x3 x4 x5 x6 x7 b s) := by
  rw [val_main_v35_apply, val_main_v33_apply, val_main_v32_apply, val_main_v34_apply, val_main_cst_4_apply,
    val_main_cst_5_apply, Ideal.hostDivf_def, Ideal.ofBits_def, Ideal.ofBits_def, Ideal.ofBits_zero_f32, zero_add]
  exact congrArg (fun t : EReal => Ideal.div t (Ideal.ofBits .f32 0x44800000#32))
    (Finset.sum_congr rfl fun k _ => congrArg (val_main_v31 (F := Ideal) x0 x1 x2 x3 x4 x5 x6 x7) (featSumIdx_eq b s u k))

/-- The first centred array at (b, s, e): the row's entry minus the row's mean. -/
theorem v37_at (b : Fin 4) (s : Fin 2048) (e : Fin 1024) :
    val_main_v37 (F := Ideal) x0 x1 x2 x3 x4 x5 x6 x7 (ix3 b s e)
      = yrow x0 x1 x2 x3 x4 x5 x6 x7 b s e - Cert.Spec.mean (yrow x0 x1 x2 x3 x4 x5 x6 x7 b s) := by
  rw [val_main_v37_apply, val_main_v36_apply, Ideal.subf_def]
  exact congrArg (fun t : EReal => val_main_v31 (F := Ideal) x0 x1 x2 x3 x4 x5 x6 x7 (ix3 b s e) - t)
    ((congrArg (val_main_v35 (F := Ideal) x0 x1 x2 x3 x4 x5 x6 x7) (colIdx_eq b s e)).trans (v35_at x0 x1 x2 x3 x4 x5 x6 x7 b s 0))

/-- The second centred array is the same difference. -/
theorem v44_at (b : Fin 4) (s : Fin 2048) (e : Fin 1024) :
    val_main_v44 (F := Ideal) x0 x1 x2 x3 x4 x5 x6 x7 (ix3 b s e)
      = yrow x0 x1 x2 x3 x4 x5 x6 x7 b s e - Cert.Spec.mean (yrow x0 x1 x2 x3 x4 x5 x6 x7 b s) := by
  rw [val_main_v44_apply, val_main_v43_apply, Ideal.subf_def]
  exact congrArg (fun t : EReal => val_main_v31 (F := Ideal) x0 x1 x2 x3 x4 x5 x6 x7 (ix3 b s e) - t)
    ((congrArg (val_main_v35 (F := Ideal) x0 x1 x2 x3 x4 x5 x6 x7) (colIdx_eq b s e)).trans (v35_at x0 x1 x2 x3 x4 x5 x6 x7 b s 0))

/-- The variance column at (b, s, u): the mean of the squared differences. -/
theorem v42_at (b : Fin 4) (s : Fin 2048) (u : Fin 1) :
    val_main_v42 (F := Ideal) x0 x1 x2 x3 x4 x5 x6 x7 (ix3 b s u)
      = Cert.Spec.mean (fun j => (yrow x0 x1 x2 x3 x4 x5 x6 x7 b s j - Cert.Spec.mean (yrow x0 x1 x2 x3 x4 x5 x6 x7 b s))
          * (yrow x0 x1 x2 x3 x4 x5 x6 x7 b s j - Cert.Spec.mean (yrow x0 x1 x2 x3 x4 x5 x6 x7 b s))) := by
  rw [val_main_v42_apply, val_main_v40_apply, val_main_v39_apply, val_main_v41_apply, val_main_cst_6_apply,
    val_main_cst_7_apply, Ideal.hostDivf_def, Ideal.ofBits_def, Ideal.ofBits_def, Ideal.ofBits_zero_f32, zero_add]
  refine congrArg (fun t : EReal => Ideal.div t (Ideal.ofBits .f32 0x44800000#32)) (Finset.sum_congr rfl fun k _ => ?_)
  refine (congrArg (val_main_v38 (F := Ideal) x0 x1 x2 x3 x4 x5 x6 x7) (featSumIdx_eq b s u k)).trans ?_
  rw [val_main_v38_apply, Ideal.mulf_def, v37_at]

/-- The reciprocal standard deviation at (b, s, u). -/
theorem v47_at (b : Fin 4) (s : Fin 2048) (u : Fin 1) :
    val_main_v47 (F := Ideal) x0 x1 x2 x3 x4 x5 x6 x7 (ix3 b s u)
      = Ideal.rsqrt (Cert.Spec.mean (fun j => (yrow x0 x1 x2 x3 x4 x5 x6 x7 b s j - Cert.Spec.mean (yrow x0 x1 x2 x3 x4 x5 x6 x7 b s))
          * (yrow x0 x1 x2 x3 x4 x5 x6 x7 b s j - Cert.Spec.mean (yrow x0 x1 x2 x3 x4 x5 x6 x7 b s))) + Ideal.ofBits .f32 0x3727C5AC#32) := by
  rw [val_main_v47_apply, val_main_v46_apply, val_main_v45_apply, val_main_cst_8_apply, Ideal.hostUnary_rsqrt_def,
    Ideal.addf_def, Ideal.ofBits_def, v42_at]

/-- The whole normalisation at (b, s, e): the specification's row normalisation of the row at (b, s). -/
theorem v55_at (b : Fin 4) (s : Fin 2048) (e : Fin 1024) :
    val_main_v55 (F := Ideal) x0 x1 x2 x3 x4 x5 x6 x7 x8 x9 (ix3 b s e)
      = Cert.Spec.lnRow (yrow x0 x1 x2 x3 x4 x5 x6 x7 b s) (fun e' => x8 (ix1 e')) (fun e' => x9 (ix1 e')) e := by
  rw [val_main_v55_apply, val_main_v52_apply, val_main_v49_apply, val_main_v48_apply, val_main_v51_apply, val_main_v50_apply,
    val_main_v54_apply, val_main_v53_apply, Ideal.addf_def, Ideal.mulf_def, Ideal.mulf_def, v44_at]
  unfold Cert.Spec.lnRow
  refine congrArg₂ (fun p q : EReal => p + q) (congrArg₂ (fun p q : EReal => p * q) (congrArg (fun t : EReal => (yrow x0 x1 x2 x3 x4 x5 x6 x7 b s e - Cert.Spec.mean (yrow x0 x1 x2 x3 x4 x5 x6 x7 b s)) * t) ?_) ?_) ?_
  · exact (congrArg (val_main_v47 (F := Ideal) x0 x1 x2 x3 x4 x5 x6 x7) (colIdx_eq b s e)).trans (v47_at x0 x1 x2 x3 x4 x5 x6 x7 b s 0)
  · exact congrArg x8 (vecIdx_eq b s e)
  · exact congrArg x9 (vecIdx_eq b s e)

end Cert.ReferenceIdeal.RefValue

end
-- ==== Proof.RefOut.lean ====
/-
  The reference's result is the specification's output stage applied to its attention result.

  The reference normalises, per position (b, s), the row whose feature e is the merged heads contracted against
  row e of the output weight plus the layer's input. The specification's output stage is the same row normalisation
  of the same row, so the two agree entry by entry. The attention result stays a name: nothing here opens it.
-/
import proofs.«118998_j18983755448471_1_alg».proof.Proof.RefOutRow
import proofs.«118998_j18983755448471_1_alg».proof.Proof.RefOutNorm

noncomputable section

open scoped BigOperators

namespace Cert.ReferenceIdeal.RefValue

open Cert.ReferenceIdeal Cert.ReferenceIdeal.Gen Idealize.ShloMosaic Idealize.ShloMosaic.TcCoe Idealize.SL.Sem Cert.ReferenceIdeal.Read
open Idealize.ShloMosaic.ValueIdx

/-- The reference's result at every index (b, s, e): the row normalisation of the projected, residual-added row at
    (b, s), with the scale and shift vectors. -/
theorem v55_eq (x0 x1 x2 : (⟨S4x2048x1024, .f32⟩ : BufTy).Contents (Elt Ideal)) (x3 : (⟨S4x2048x2048, .i32⟩ : BufTy).Contents (Elt Ideal))
    (x4 x5 x6 x7 : (⟨S1024x1024, .f32⟩ : BufTy).Contents (Elt Ideal)) (x8 x9 : (⟨S1024, .f32⟩ : BufTy).Contents (Elt Ideal)) :
    val_main_v55 (F := Ideal) x0 x1 x2 x3 x4 x5 x6 x7 x8 x9
      = fun j => Cert.Spec.olnHAt (val_main_v27 (F := Ideal) x0 x1 x2 x3 x4 x5 x6) x7 x0 x8 x9 (j 0) (j 1) (j 2) := by
  funext j
  obtain ⟨b, s, e, rfl⟩ : ∃ (b : Fin 4) (s : Fin 2048) (e : Fin 1024), j = ix3 b s e := ⟨j 0, j 1, j 2, eq_ix3 j⟩
  show _ = Cert.Spec.olnHAt (val_main_v27 (F := Ideal) x0 x1 x2 x3 x4 x5 x6) x7 x0 x8 x9 b s e
  refine (v55_at x0 x1 x2 x3 x4 x5 x6 x7 x8 x9 b s e).trans ?_
  unfold Cert.Spec.olnHAt
  exact congrArg (fun y : Fin 1024 → EReal => Cert.Spec.lnRow y (fun e' => x8 (ix1 e')) (fun e' => x9 (ix1 e')) e)
    (funext fun e' => v31_at x0 x1 x2 x3 x4 x5 x6 x7 b s e')

end Cert.ReferenceIdeal.RefValue

end
-- ==== Proof.RefSpec.lean ====
/-
  The reference's result as a function of its arguments: the specification's layer.

  The reference's last stage is the LayerNorm'd output projection of the merged attention output, its attention
  stage the attention of the three projections split into heads, and each projection the activations times the
  transposed weight; put together these are `Cert.Spec.out` of the ten arguments.
-/
import proofs.«118998_j18983755448471_1_alg».proof.Proof.RefProj
import proofs.«118998_j18983755448471_1_alg».proof.Proof.RefAttn
import proofs.«118998_j18983755448471_1_alg».proof.Proof.RefOut
import proofs.«118998_j18983755448471_1_alg».proof.Proof.Spec

noncomputable section

namespace Cert.ReferenceIdeal.RefValue

open Cert.ReferenceIdeal Cert.ReferenceIdeal.Gen Idealize.ShloMosaic Idealize.ShloMosaic.TcCoe Idealize.SL.Sem Cert.ReferenceIdeal.Read

theorem out_eq (x0 x1 x2 : (⟨S4x2048x1024, .f32⟩ : BufTy).Contents (Elt Ideal)) (x3 : (⟨S4x2048x2048, .i32⟩ : BufTy).Contents (Elt Ideal)) (x4 x5 x6 x7 : (⟨S1024x1024, .f32⟩ : BufTy).Contents (Elt Ideal)) (x8 x9 : (⟨S1024, .f32⟩ : BufTy).Contents (Elt Ideal)) :
    val_main_v55 (F := Ideal) x0 x1 x2 x3 x4 x5 x6 x7 x8 x9 = Cert.Spec.out x0 x1 x2 x3 x4 x5 x6 x7 x8 x9 := by
  rw [v55_eq, v27_eq, v2_eq, v5_eq, v8_eq]
  rfl

end Cert.ReferenceIdeal.RefValue

end
-- ==== Proof.lean ====
/-
  The certificate: a multi-head attention layer written as five TPU kernels (three linear projections, attention
  with a full softmax per query row, and an output projection fused with the residual and a LayerNorm) computes,
  on the extended reals, the same function of its ten arguments as the plain jnp reference.

  Both programs are compared with one specification, `Cert.Spec.out` (Proof/Spec.lean), stated index by index:
    * the kernel's run ends with its result buffer at the last boundary's contents (Proof/KRun.lean), which read back
      through the host stretches and the regions' output arrays (Proof/KFold.lean, Proof/KValue.lean) are the
      specification of the arguments;
    * the reference's generated run ends at the composed term of its operations, which is the same specification
      (Proof/RefSpec.lean).
  No algebra beyond re-indexing sums is needed, except that dividing by 8 is multiplying by the exact binary 1/8;
  finiteness of the inputs is never used. The frames of the two kernel programs are the generated ones, the
  reference's frame its generated run with the result dropped, and the idealization rewrote nothing.
-/
import proofs.«118998_j18983755448471_1_alg».proof.Defs
import proofs.«118998_j18983755448471_1_alg».proof.Proof.Gen.Kernel
import proofs.«118998_j18983755448471_1_alg».proof.Proof.Gen.Kernel.Skeleton
import proofs.«118998_j18983755448471_1_alg».proof.Proof.Gen.Kernel.Launch
import proofs.«118998_j18983755448471_1_alg».proof.Proof.Gen.Kernel.Points
import proofs.«118998_j18983755448471_1_alg».proof.Proof.Gen.Kernel.Frame
import proofs.«118998_j18983755448471_1_alg».proof.Proof.Gen.KernelIdeal
import proofs.«118998_j18983755448471_1_alg».proof.Proof.Gen.KernelIdeal.Skeleton
import proofs.«118998_j18983755448471_1_alg».proof.Proof.Gen.KernelIdeal.Launch
import proofs.«118998_j18983755448471_1_alg».proof.Proof.Gen.KernelIdeal.Points
import proofs.«118998_j18983755448471_1_alg».proof.Proof.Gen.KernelIdeal.Frame
import proofs.«118998_j18983755448471_1_alg».proof.Proof.Gen.ReferenceIdeal
import proofs.«118998_j18983755448471_1_alg».proof.Proof.Gen.Pre_finite_inputs
import proofs.«118998_j18983755448471_1_alg».proof.Proof.Gen.ReferenceIdeal.Run
import proofs.«118998_j18983755448471_1_alg».proof.Proof.Gen.ReferenceIdeal.Read
import proofs.«118998_j18983755448471_1_alg».proof.Proof.KRun
import proofs.«118998_j18983755448471_1_alg».proof.Proof.KValue
import proofs.«118998_j18983755448471_1_alg».proof.Proof.RefSpec
import Idealize.ShloMosaic.Adequacy
import Idealize.ShloMosaic.Init

noncomputable section

namespace Cert.Proof

open Idealize.ShloMosaic Idealize.SL.Sem Cert.Kernel

/-- The reference runs, and leaves its arguments as launched: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's layer of those
    arguments in their result buffers. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Gen.result_eq m ρ c), (h c).2⟩)
    (Cert.KernelIdeal.Gen.run_value (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v55_eq, Cert.ReferenceIdeal.RefValue.out_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
